-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x32, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000x1, .f32⟩
  | .hbm, ⟨76, _⟩ => ⟨S1700000x32, .f32⟩
  | .hbm, ⟨77, _⟩ => ⟨S1700000x32, .f32⟩
  | .hbm, ⟨78, _⟩ => ⟨S_, .f32⟩
  | .hbm, ⟨79, _⟩ => ⟨S100000x32, .f32⟩
  | .hbm, ⟨80, _⟩ => ⟨S1700000x1, .i32⟩
  | .hbm, ⟨81, _⟩ => ⟨S100000x32, .f32⟩
  | .hbm, ⟨82, _⟩ => ⟨S1x32, .f32⟩
  | .hbm, ⟨83, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x32, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x32, .f32⟩
  | 112 => ⟨S1700000x1, .f32⟩
  | 113 => ⟨S1700000x32, .f32⟩
  | 114 => ⟨S1700000x32, .f32⟩
  | 115 => ⟨S_, .f32⟩
  | 116 => ⟨S100000x32, .f32⟩
  | 117 => ⟨S1700000x1, .i32⟩
  | 118 => ⟨S100000x32, .f32⟩
  | 119 => ⟨S1x32, .f32⟩
  | 120 => ⟨S100000x32, .f32⟩
  | 121 => ⟨S100000x32, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x32, .f32⟩
  | 1 => ⟨S100000x32, .f32⟩
  | 2 => ⟨S100000x32, .f32⟩
  | 3 => ⟨S_, .f32⟩
  | 4 => ⟨S100000, .f32⟩
  | 5 => ⟨S100000x1, .f32⟩
  | 6 => ⟨S100000x1, .f32⟩
  | 7 => ⟨S100000x32, .f32⟩
  | 8 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run with its result named: every weakly fair execution of @main terminates, nothing
  faulting, the result buffer holding what the last of the nine segments (five stretches of host operations, four
  TensorCore regions) leaves there — the fold `W9` of the buffer contents through the segments, read at the result —
  and the six argument arrays as launched.
-/
import proofs.«133091_j23149873725488_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments from the launch memory: the last thread state (every unscoped buffer at the last
    boundary's contents) read against the final state, at the result buffer and at each argument. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Spec.lean ====
/-
  The four dense stages of the two-layer graph convolution, each as ONE function of whole arrays over the extended
  reals, written with the host operations of the reference program (so that the kernel's value, once each
  TensorCore region is replaced by its stage, is the reference's own composed term):

  * `lin1 x w`   — the first linear map: entry (i, j) is the sum over k of x (i, k) · w (k, j), 100000 × 128 by 128 × 64;
  * `act1 a b`   — bias and rectifier: entry (i, j) is max (a (i, j) + b (0, j)) 0, the bias a 1 × 64 row;
  * `lin2 h w`   — the second linear map, 100000 × 64 by 64 × 32;
  * `lsm a b`    — bias and log-softmax along a row: with z (i, j) = a (i, j) + b (0, j), M i the maximum of row i
                    (joined with −∞) and s (i, j) = z (i, j) − M i, the entry is s (i, j) − log (Σ_k exp (s (i, k))).
-/
import proofs.«133091_j23149873725488_1_alg».proof.Proof.Gen.ReferenceIdeal
import Idealize.ShloMosaic.PureOps.Ideal

noncomputable section

namespace Cert.Spec

open Idealize.ShloMosaic Cert.ReferenceIdeal Cert.ReferenceIdeal.Gen

/-- The first linear map on whole arrays. -/
def lin1 (x : FVec Ideal S100000x128 .f32) (w : FVec Ideal S128x64 .f32) : FVec Ideal S100000x64 .f32 :=
  Host.dotGeneral (F := Ideal) dot_S100000x128_S128x64_S100000x64_1_0_0_1_n_n none x w

/-- Bias (a 1 × 64 row, repeated down the rows) and rectifier on whole arrays. -/
def act1 (a : FVec Ideal S100000x64 .f32) (b : FVec Ideal S1x64 .f32) : FVec Ideal S100000x64 .f32 :=
  maximumf (F := Ideal) (addf a (broadcastInDim S100000x64 ![0, 1] bcast_S1x64_S100000x64_0_1 b))
    (broadcastInDim S100000x64 ![] bcast_S_S100000x64 (constant (F := Ideal) S_ .f32 0x00000000#32))

/-- The second linear map on whole arrays. -/
def lin2 (h : FVec Ideal S100000x64 .f32) (w : FVec Ideal S64x32 .f32) : FVec Ideal S100000x32 .f32 :=
  Host.dotGeneral (F := Ideal) dot_S100000x64_S64x32_S100000x32_1_0_0_1_n_n none h w

/-- The logits: the aggregated features plus the bias row. -/
def logits (a : FVec Ideal S100000x32 .f32) (b : FVec Ideal S1x32 .f32) : FVec Ideal S100000x32 .f32 :=
  addf (F := Ideal) a (broadcastInDim S100000x32 ![0, 1] bcast_S1x32_S100000x32_0_1 b)

/-- The row maxima of the logits, joined with −∞. -/
def rowMax (z : FVec Ideal S100000x32 .f32) : FVec Ideal S100000 .f32 :=
  maximumf (F := Ideal) (broadcastInDim S100000 ![] bcast_S_S100000 (constant (F := Ideal) S_ .f32 0xFF800000#32))
    (Host.reduce (FloatOps.maximumf (F := Ideal) (φ := .f32)) z (constant (F := Ideal) S_ .f32 0xFF800000#32) reducesTo_S100000x32_S100000_d1 h_S_)

/-- The logits shifted by their row maximum. -/
def shifted (z : FVec Ideal S100000x32 .f32) : FVec Ideal S100000x32 .f32 :=
  subf (F := Ideal) z (broadcastInDim S100000x32 ![0, 1] bcast_S100000x1_S100000x32_0_1
    (broadcastInDim S100000x1 ![0] bcast_S100000_S100000x1_0 (rowMax z)))

/-- Log-softmax of the shifted logits along each row. -/
def lsmOf (s : FVec Ideal S100000x32 .f32) : FVec Ideal S100000x32 .f32 :=
  subf (F := Ideal) s (broadcastInDim S100000x32 ![0, 1] bcast_S100000x1_S100000x32_0_1
    (Host.log (F := Ideal) (broadcastInDim S100000x1 ![0] bcast_S100000_S100000x1_0
      (Host.reduceAdd (F := Ideal) (Host.exp (F := Ideal) s) (constant (F := Ideal) S_ .f32 0x00000000#32) reducesTo_S100000x32_S100000_d1 h_S_))))

/-- Bias and log-softmax on whole arrays. -/
def lsm (a : FVec Ideal S100000x32 .f32) (b : FVec Ideal S1x32 .f32) : FVec Ideal S100000x32 .f32 :=
  lsmOf (shifted (logits a b))

end Cert.Spec

end
-- ==== Proof.Glue.lean ====
/-
  The sparse half of the two-layer graph convolution on whole arrays over the extended reals, written with the host
  operations of the reference program: from the 2 × 1600000 edge list `e`,
  * `src e`, `dst e` — the 1700000 edge sources / targets: row 0 / row 1 of `e` followed by the 100000 self loops;
  * `deg e`  — the in-degree of every node, self loop included: ones scattered and added at `dst e`;
  * `dis e`  — degree^(-1/2) where the degree is positive, 0 elsewhere;
  * `norm e` — the edge weight dis(src) · dis(dst), both read through jnp's negative-index wrap;
  * `agg1 z e`, `agg2 z e` — the aggregation: row `src` of `z` times the edge weight, scattered and added at `dst`;
  * `biasRow1`, `biasRow2` — a bias vector as a 1 × C row;
  * `gcn` — the whole network: log-softmax (agg2 (relu (agg1 (x·W1) + b1) · W2) + b2).
-/
import proofs.«133091_j23149873725488_1_alg».proof.Proof.Spec

noncomputable section

namespace Cert.Spec

open Idealize.ShloMosaic Cert.ReferenceIdeal Cert.ReferenceIdeal.Gen

/-- A 32-bit integer array and a float array over the extended reals. -/
abbrev IArr (s : Shape) : Type := IVec s 32
abbrev FArr (s : Shape) : Type := FVec Ideal s .f32

/-- The edge sources: row 0 of the edge list, then the self loops 0 … 99999. -/
def src (e : IArr S2x1600000) : IArr S1700000 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edge targets: row 1 of the edge list, then the self loops. -/
def dst (e : IArr S2x1600000) : IArr S1700000 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index vector as a column of index words. -/
def col (v : IArr S1700000) : IArr S1700000x1 :=
  broadcastInDim S1700000x1 ![0] bcast_S1700000_S1700000x1_0 v

/-- jnp's wrap of a negative index (v < 0 ↦ v + 100000), as a column of index words. -/
def wrap (v : IArr S1700000) : IArr S1700000x1 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The in-degrees: ones added at the edge targets. -/
def deg (e : IArr S2x1600000) : FArr S100000 :=
  Host.scatterAdd (F := Ideal) scatter_S100000_S1700000x1_S1700000_n_0_0_1
    (broadcastInDim S100000 ![] bcast_S_S100000 (constant (F := Ideal) S_ .f32 0x00000000#32)) (col (dst e))
    (broadcastInDim S1700000 ![] bcast_S_S1700000 (constant (F := Ideal) S_ .f32 0x3F800000#32))

/-- degree^(-1/2) where the degree is positive, 0 elsewhere. -/
def dis (e : IArr S2x1600000) : FArr S100000 :=
  select (cmpf (F := Ideal) .ogt (deg e) (broadcastInDim S100000 ![] bcast_S_S100000 (constant (F := Ideal) S_ .f32 0x00000000#32)))
    (Host.rsqrt (F := Ideal) (deg e))
    (broadcastInDim S100000 ![] bcast_S_S100000 (id (constant (F := Ideal) S_ .f32 0x00000000#32)))

/-- The edge weights dis(src) · dis(dst). -/
def norm (e : IArr S2x1600000) : FArr S1700000 :=
  mulf (F := Ideal) (Host.gather gather_S100000_S1700000x1_S1700000_n_0_n_n_0_1_1 (dis e) (wrap (src e)))
    (Host.gather gather_S100000_S1700000x1_S1700000_n_0_n_n_0_1_1 (dis e) (wrap (dst e)))

/-- Layer 1's aggregation of a 100000 × 64 feature array. -/
def agg1 (z : FArr S100000x64) (e : IArr S2x1600000) : FArr S100000x64 :=
  Host.scatterAdd (F := Ideal) scatter_S100000x64_S1700000x1_S1700000x64_1_0_0_1
    (broadcastInDim S100000x64 ![] bcast_S_S100000x64 (constant (F := Ideal) S_ .f32 0x00000000#32)) (col (dst e))
    (mulf (F := Ideal) (Host.gather gather_S100000x64_S1700000x1_S1700000x64_1_0_n_n_0_1_164 z (wrap (src e)))
      (broadcastInDim S1700000x64 ![0, 1] bcast_S1700000x1_S1700000x64_0_1
        (broadcastInDim S1700000x1 ![0] bcast_S1700000_S1700000x1_0 (norm e))))

/-- Layer 2's aggregation of a 100000 × 32 feature array. -/
def agg2 (z : FArr S100000x32) (e : IArr S2x1600000) : FArr S100000x32 :=
  Host.scatterAdd (F := Ideal) scatter_S100000x32_S1700000x1_S1700000x32_1_0_0_1
    (broadcastInDim S100000x32 ![] bcast_S_S100000x32 (constant (F := Ideal) S_ .f32 0x00000000#32)) (col (dst e))
    (mulf (F := Ideal) (Host.gather gather_S100000x32_S1700000x1_S1700000x32_1_0_n_n_0_1_132 z (wrap (src e)))
      (broadcastInDim S1700000x32 ![0, 1] bcast_S1700000x1_S1700000x32_0_1
        (broadcastInDim S1700000x1 ![0] bcast_S1700000_S1700000x1_0 (norm e))))

/-- A bias vector as a 1 × C row. -/
def biasRow1 (b : FArr S64) : FArr S1x64 := broadcastInDim S1x64 ![1] bcast_S64_S1x64_1 b
def biasRow2 (b : FArr S32) : FArr S1x32 := broadcastInDim S1x32 ![1] bcast_S32_S1x32_1 b

/-- The whole network on whole arrays. -/
def gcn (x : FArr S100000x128) (e : IArr S2x1600000) (w1 : FArr S128x64) (b1 : FArr S64) (w2 : FArr S64x32) (b2 : FArr S32) :
    FArr S100000x32 :=
  lsm (agg2 (lin2 (act1 (agg1 (lin1 x w1) e) (biasRow1 b1)) w2) e) (biasRow2 b2)

end Cert.Spec

end
-- ==== Proof.BiasRow.lean ====
/-
  A bias vector as a one-row matrix, two ways.

  The kernel side lays the C entries of the bias vector out as a 1 × C array by a reshape; the reference broadcasts the
  vector along a new leading axis of extent 1. Entry (0, j) of either array is entry j of the vector: the reshape keeps
  the row-major position 0 · C + j = j, and the broadcast reads the vector at the coordinate of axis 1. So the two
  1 × C arrays are equal, for C = 64 (layer 1) and C = 32 (layer 2).
-/
import proofs.«133091_j23149873725488_1_alg».proof.Proof.Glue
import Idealize.ShloMosaic.Lib.ValueIdx
import Idealize.ShloMosaic.Lib.Pipeline.Value

noncomputable section

namespace Cert.Spec

open Idealize.ShloMosaic Idealize.ShloMosaic.ValueIdx Cert.ReferenceIdeal Cert.ReferenceIdeal.Gen

/-- The reshape of a vector of `n` entries to a 1 × `n` array is its broadcast along a new leading unit axis: both
    read the vector at the coordinate of axis 1. -/
theorem shapeCast_eq_broadcastInDim_row {α : Type} {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext j
  have hj0 : (j 0).val < 1 := (j 0).isLt
  have hj1 : (j 1).val < n := (j 1).isLt
  have e2 := shapeCast_apply x h j (ix1 (j 1 : Fin n)) (by
    rw [Shape.rowMajor_val_two, Shape.rowMajor_val_one]
    show (j 1).val = (j 0).val * n + (j 1).val
    rw [show (j 0).val = 0 by omega]; omega)
  have e3 := broadcastInDim_apply ![1] hd x j (ix1 (j 1 : Fin n)) (by
    intro a
    match a with
    | ⟨0, _⟩ =>
      show (j 1).val = if n = 1 then 0 else (j 1).val
      split
      · omega
      · rfl)
  exact e2.trans e3.symm

/-- Layer 1's bias: the reshape of the 64-vector to a 1 × 64 row is the specification's bias row. -/
theorem shapeCast_eq_biasRow1 (b : FVec Ideal S64 .f32) (h : S64.ShapeCasts S1x64) :
    shapeCast S1x64 b h = Cert.Spec.biasRow1 b := by
  unfold Cert.Spec.biasRow1
  exact shapeCast_eq_broadcastInDim_row (n := 64) b h bcast_S64_S1x64_1

/-- Layer 2's bias: the reshape of the 32-vector to a 1 × 32 row is the specification's bias row. -/
theorem shapeCast_eq_biasRow2 (b : FVec Ideal S32 .f32) (h : S32.ShapeCasts S1x32) :
    shapeCast S1x32 b h = Cert.Spec.biasRow2 b := by
  unfold Cert.Spec.biasRow2
  exact shapeCast_eq_broadcastInDim_row (n := 32) b h bcast_S32_S1x32_1

end Cert.Spec

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.Region0.lean ====
/-
  The first linear map of the two-layer graph convolution, as the kernel computes it block by block, is the whole-array
  linear map of the specification.

  The region walks 20 row tiles of 5000 rows. At tile t the body multiplies rows [5000·t, 5000·t + 5000) of the
  100000 × 128 feature array by the whole 128 × 64 weight array into the zero accumulator, and the result is written
  back to rows [5000·t, 5000·t + 5000) of the 100000 × 64 output array. Over the extended reals entry (p, q) of the
  tile's product is Σ_{k<128} x (5000·t + p, k) · w (k, q), which is entry (5000·t + p, q) of the whole-array product;
  the 20 tiles cover every row (row r lies in tile r / 5000), so the output array ends holding the whole-array product.
-/
import proofs.«133091_j23149873725488_1_alg».proof.Proof.Gen.KernelIdeal.Frame
import proofs.«133091_j23149873725488_1_alg».proof.Proof.Spec
import proofs.«133091_j23149873725488_1_alg».proof.Proof.LibMatmulIx
import proofs.«133091_j23149873725488_1_alg».proof.Proof.LibHostDotIx
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-- The zero offsets of a whole-buffer access, as the constant function. -/
theorem zeroOff0 : (![0, 0] : Fin 2 → Nat) = fun _ => 0 := funext fun a => by fin_cases a <;> rfl

/-- The tile's product at entry (p, q): the sum over the contracted coordinate of the products of the entries of the
    row tile and of the weights (the narrowing of the operands is the identity over the extended reals). -/
theorem pay0_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact Cert.LibMatmulIx.matmul_zero_apply _ none (truncf .bf16 x0 bitsLt_bf16_f32) (truncf .bf16 x1 bitsLt_bf16_f32) p q

/-- The whole-array product at entry (r, q): the same sum along row r. -/
theorem lin1_apply (x : FVec Ideal S100000x128 .f32) (w : FVec Ideal S128x64 .f32) (r : Fin 100000) (q : Fin 64) :
    Cert.Spec.lin1 x w (ix2 r q) = ∑ k : Fin 128, x (ix2 r k) * w (ix2 k q) := by
  unfold Cert.Spec.lin1
  exact Cert.LibHostDotIx.dotGeneral_apply _ none x w r q

/-- The block indices of the three windows at every tile: the features' and the output's tile t starts at block row t,
    the weights' block is always the whole array. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' tile t is row 5000·t + p of the feature array. -/
theorem rows0 (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : S100000x128.Idx → Elt Ideal .f32) (ix2 r k) := by
  obtain ⟨e0, e1, -⟩ := blockIdx0 t
  unfold iblk0
  rw [View.read_apply]
  show V c main_arg0 (((cfg0.win 0).blk t).view.emb (ix2 p k)) = V c main_arg0 (ix2 r k)
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The weights' block at every tile is the weight array. -/
theorem weights0 (c : Dev nD) (t : Fin cfg0.N) (k : Fin 128) (q : Fin 64) :
    (iblk0 V c 1 t : Vec Ideal S128x64 .f32) (ix2 k q) = (V c main_arg2 : S128x64.Idx → Elt Ideal .f32) (ix2 k q) := by
  obtain ⟨-, -, e2, e3, -⟩ := blockIdx0 t
  unfold iblk0
  rw [View.read_apply]
  show V c main_arg2 (((cfg0.win 1).blk t).view.emb (ix2 k q)) = V c main_arg2 (ix2 k q)
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- What tile t writes back is block t of the whole-array product of the arrays as the region finds them. -/
theorem flushed0_eq (c : Dev nD) (t : Fin cfg0.N) :
    (dat0 (F := Ideal) V c).flushed 2 t
      = ((cfg0.win 2).blk t).view.read (Elt Ideal) (Cert.Spec.lin1 (V c main_arg0) (V c main_arg2)) := by
  show (cfg0.win 2).cut (grid0.coords t) ((dat0 V c).after 2 t) = _
  rw [after0_2]
  unfold out0_2
  rw [View.canon_unit_zero zeroOff0]
  simp only [View.ld_unit_zero (S := S5000x128) zeroOff0, View.ld_unit_zero (S := S128x64) zeroOff0]
  funext j
  obtain ⟨p, q, rfl⟩ : ∃ (p : Fin 5000) (q : Fin 64), j = ix2 p q := ⟨j 0, j 1, eq_ix2 j⟩
  obtain ⟨-, -, -, -, e4, e5⟩ := blockIdx0 t
  have ht : t.val < 20 := Nat.lt_of_lt_of_eq t.isLt (N_0 : cfg0.N = 20)
  have hemb : ((cfg0.win 2).blk t).view.emb (ix2 p q) = (ix2 (⟨5000 * t.val + p.val, by omega⟩ : Fin 100000) q : S100000x64.Idx) := by
    funext a
    apply Fin.ext
    match a with
    | ⟨0, _⟩ => show win0_2.index t (0 : Fin 2) * 5000 + 1 * p.val = 5000 * t.val + p.val; omega
    | ⟨1, _⟩ => show win0_2.index t (1 : Fin 2) * 64 + 1 * q.val = q.val; omega
  show k0_pay1 (iblk0 V c 0 t) (iblk0 V c 1 t) (ix2 p q)
    = Cert.Spec.lin1 (V c main_arg0) (V c main_arg2) (((cfg0.win 2).blk t).view.emb (ix2 p q))
  rw [hemb, lin1_apply, pay0_apply]
  refine Finset.sum_congr rfl fun k _ => ?_
  rw [rows0 V c t p k ⟨5000 * t.val + p.val, by omega⟩ rfl, weights0 V c t k q]

/-- An index of the output array is in tile t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- The output array after the region is the whole-array product: row r is written by tile r / 5000. -/
theorem final0 (c : Dev nD) :
    (dat0 (F := Ideal) V c).arrAt 2 cfg0.N = Cert.Spec.lin1 (V c main_arg0) (V c main_arg2) :=
  (dat0 V c).arrAt_eq_of_cover 2 (Cert.Spec.lin1 (V c main_arg0) (V c main_arg2)) (fun t _ => flushed0_eq V c t)
    fun (i : S100000x64.Idx) => by
      have hi0 : (i 0).val < 100000 := (i 0).isLt
      have hi1 : (i 1).val < 64 := (i 1).isLt
      have hN : cfg0.N = 20 := N_0
      refine ⟨⟨(i 0).val / 5000, by omega⟩, flush0_2 _, ?_⟩
      obtain ⟨-, -, -, -, e4, e5⟩ := blockIdx0 ⟨(i 0).val / 5000, by omega⟩
      rw [mem_blk0]
      intro a
      match a with
      | ⟨0, _⟩ =>
        show win0_2.index ⟨(i 0).val / 5000, _⟩ (0 : Fin 2) * 5000 ≤ (i 0).val
          ∧ (i 0).val < win0_2.index ⟨(i 0).val / 5000, _⟩ (0 : Fin 2) * 5000 + 5000
        rw [e4]; show (i 0).val / 5000 * 5000 ≤ (i 0).val ∧ (i 0).val < (i 0).val / 5000 * 5000 + 5000; omega
      | ⟨1, _⟩ =>
        show win0_2.index ⟨(i 0).val / 5000, _⟩ (1 : Fin 2) * 64 ≤ (i 1).val
          ∧ (i 1).val < win0_2.index ⟨(i 0).val / 5000, _⟩ (1 : Fin 2) * 64 + 64
        rw [e5]; omega

end Cert.KernelIdeal.RegionValue

end
-- ==== Proof.Region1.lean ====
/-
  The second TensorCore region (bias and rectifier) on whole arrays.

  Each of the 20 grid points t reads rows [5000·t, 5000·t + 5000) of the 100000 × 64 array a, the whole 1 × 64 bias row b,
  and writes rows [5000·t, 5000·t + 5000) of the result; the entry (p, q) of what it writes is
  max (a (5000·t + p, q) + b (0, q)) 0. The 20 row blocks cover all 100000 rows, so after the region the result array
  is the whole-array function `act1 a b`, whose entry (r, q) is max (a (r, q) + b (0, q)) 0, with the same zero word.
-/
import proofs.«133091_j23149873725488_1_alg».proof.Proof.Gen.KernelIdeal.Frame
import proofs.«133091_j23149873725488_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1Value

open Cert.KernelIdeal Cert.KernelIdeal.Gen
open Idealize.ShloMosaic Idealize.ShloMosaic.TcCoe Idealize.SL.Sem
open Idealize.ShloMosaic.Pipeline (Dat)
open Idealize.ShloMosaic.ValueIdx

/-- The body's payload at (p, q): the block's entry plus the bias row's entry in column q, joined with zero. -/
theorem pay1_apply (x0 : Vec Ideal S5000x64 .f32) (x1 : Vec Ideal S1x64 .f32) (p : Fin 5000) (q : Fin 64) :
    k1_pay1 (F := Ideal) x0 x1 (ix2 p q) = max (x0 (ix2 p q) + x1 (ix2 (0 : Fin 1) q)) (Ideal.ofBits .f32 0x00000000#32) := by
  unfold k1_pay1
  rw [maximumf_apply, addf_apply, broadcast_apply, shapeCast_self, shapeCast_self,
    broadcastTo_1b_ab_apply x1 broadcasts_S1x64_S5000x64 p q]
  rfl

/-- The whole-array bias-and-rectifier at (r, q): the entry plus the bias row's entry in column q, joined with zero. -/
theorem act1_apply (a : FVec Ideal S100000x64 .f32) (b : FVec Ideal S1x64 .f32) (r : Fin 100000) (q : Fin 64) :
    Cert.Spec.act1 a b (ix2 r q) = max (a (ix2 r q) + b (ix2 (0 : Fin 1) q)) (Ideal.ofBits .f32 0x00000000#32) := by
  unfold Cert.Spec.act1
  rw [maximumf_apply, addf_apply,
    broadcastInDim_apply ![0, 1] _ b (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)]),
    broadcastInDim_apply ![] _ (constant (F := Ideal) S_ .f32 0x00000000#32) (ix2 r q) ix0 (fun a => a.elim0)]
  rfl

/-! ## From the row blocks to the array -/

variable (V : (c : Dev nD) → (b : Ref sig .tc) → Buf (Elt Ideal) ((c : Thread nD τ).loc b))

theorem off_zero1 : (![0, 0] : Fin 2 → Nat) = fun _ => 0 := funext fun a => by fin_cases a <;> rfl

/-- The windows' index maps at each of the 20 grid points: the row windows sit at block row t, column block 0;
    the bias window at block (0, 0). -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input row block at point t, entry (p, q), is the array's entry (5000·t + p, q). -/
theorem rows_block1_apply (c : Dev nD) (t : Fin cfg1.N) (p : Fin 5000) (q : Fin 64) (r : Fin 100000)
    (hr : r.val = 5000 * t.val + p.val) :
    (iblk1 (F := Ideal) V c 0 t : Vec Ideal S5000x64 .f32) (ix2 p q) = (V c main_v43 : S100000x64.Idx → EReal) (ix2 r q) := by
  obtain ⟨e0, e1, -, -, -, -⟩ := index_maps1 t
  show V c main_v43 (((cfg1.win 0).blk t).view.emb (ix2 p q)) = V c main_v43 (ix2 r q)
  refine congrArg (V c main_v43) (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * q.val = q.val; rw [e1]; omega

/-- The bias block at any point is the whole bias row. -/
theorem bias_block1_apply (c : Dev nD) (t : Fin cfg1.N) (q : Fin 64) :
    (iblk1 (F := Ideal) V c 1 t : Vec Ideal S1x64 .f32) (ix2 (0 : Fin 1) q) = (V c main_v44 : S1x64.Idx → EReal) (ix2 (0 : Fin 1) q) := by
  obtain ⟨-, -, e2, e3, -, -⟩ := index_maps1 t
  show V c main_v44 (((cfg1.win 1).blk t).view.emb (ix2 (0 : Fin 1) q)) = V c main_v44 (ix2 (0 : Fin 1) q)
  refine congrArg (V c main_v44) (funext fun a => Fin.ext ?_)
  match a with
  | ⟨0, _⟩ => show win1_1.index t (0 : Fin 2) * 1 + 1 * 0 = 0; rw [e2]
  | ⟨1, _⟩ => show win1_1.index t (1 : Fin 2) * 64 + 1 * q.val = q.val; rw [e3]; omega

/-- Where the output's block at point t puts its entry (p, q): row 5000·t + p, column q. -/
theorem out_block1_emb (t : Fin cfg1.N) (p : Fin 5000) (q : Fin 64) (r : Fin 100000)
    (hr : r.val = 5000 * t.val + p.val) :
    (((cfg1.win 2).blk t).view.emb (ix2 p q) : S100000x64.Idx) = ix2 r q := by
  obtain ⟨-, -, -, -, e4, e5⟩ := index_maps1 t
  refine funext fun a => Fin.ext ?_
  match a with
  | ⟨0, _⟩ => show win1_2.index t (0 : Fin 2) * 5000 + 1 * p.val = r.val; rw [e4, hr]; omega
  | ⟨1, _⟩ => show win1_2.index t (1 : Fin 2) * 64 + 1 * q.val = q.val; rw [e5]; omega

/-- What point t writes back is block t of the whole-array bias-and-rectifier of the two arrays as the region finds them. -/
theorem flushed1_eq (c : Dev nD) (t : Fin cfg1.N) :
    (dat1 (F := Ideal) V c).flushed 2 t
      = ((cfg1.win 2).blk t).view.read (Elt Ideal) (Cert.Spec.act1 (V c main_v43) (V c main_v44)) := by
  show (cfg1.win 2).cut (grid1.coords t) ((dat1 (F := Ideal) V c).after 2 t) = _
  rw [after1_2]
  unfold out1_2
  rw [View.canon_unit_zero off_zero1]
  simp only [View.ld_unit_zero (S := S5000x64) off_zero1, View.ld_unit_zero (S := S1x64) off_zero1]
  funext j
  obtain ⟨p, q, rfl⟩ : ∃ (p : Fin 5000) (q : Fin 64), j = ix2 p q := ⟨j 0, j 1, eq_ix2 j⟩
  have ht : t.val < 20 := lt_of_lt_of_eq t.isLt N_1
  have hp : p.val < 5000 := p.isLt
  obtain ⟨r, hr⟩ : ∃ r : Fin 100000, r.val = 5000 * t.val + p.val := ⟨⟨5000 * t.val + p.val, by omega⟩, rfl⟩
  show k1_pay1 (F := Ideal) (iblk1 V c 0 t) (iblk1 V c 1 t) (ix2 p q)
    = Cert.Spec.act1 (V c main_v43) (V c main_v44) (((cfg1.win 2).blk t).view.emb (ix2 p q))
  refine (pay1_apply _ _ p q).trans ?_
  refine Eq.trans ?_ (congrArg (Cert.Spec.act1 (V c main_v43) (V c main_v44)) (out_block1_emb t p q r hr).symm)
  refine Eq.trans ?_ (act1_apply _ _ r q).symm
  rw [rows_block1_apply V c t p q r hr, bias_block1_apply V c t q]

/-- An index of the array is in point t's block iff each coordinate is in the block's range on its axis. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Every row r lies in the block of the point r / 5000: the 20 row blocks cover the array. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, e4, e5⟩ := index_maps1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 64 ≤ (i 1).val ∧ (i 1).val < win1_2.index t (1 : Fin 2) * 64 + 64; rw [e5]; omega

/-- After the region the result array is the whole-array bias-and-rectifier of the two input arrays. -/
theorem final1 (c : Dev nD) :
    (dat1 (F := Ideal) V c).arrAt 2 cfg1.N = Cert.Spec.act1 (V c main_v43) (V c main_v44) :=
  (dat1 (F := Ideal) V c).arrAt_eq_of_cover 2 (Cert.Spec.act1 (V c main_v43) (V c main_v44))
    (fun t _ => flushed1_eq V c t) cover1

end Cert.KernelIdeal.Region1Value

end
-- ==== Proof.Region2.lean ====
/-
  The second linear map of the two-layer graph convolution, as the kernel computes it block by block, is the
  whole-array linear map of the specification.

  The region walks 20 row tiles of 5000 rows. At tile t the body multiplies rows [5000·t, 5000·t + 5000) of the
  100000 × 64 hidden array by the whole 64 × 32 weight array into the zero accumulator, and the result is written
  back to rows [5000·t, 5000·t + 5000) of the 100000 × 32 output array. Over the extended reals entry (p, q) of the
  tile's product is Σ_{k<64} h (5000·t + p, k) · w (k, q), which is entry (5000·t + p, q) of the whole-array product;
  the 20 tiles cover every row (row r lies in tile r / 5000), so the output array ends holding the whole-array product.
-/
import proofs.«133091_j23149873725488_1_alg».proof.Proof.Gen.KernelIdeal.Frame
import proofs.«133091_j23149873725488_1_alg».proof.Proof.Spec
import proofs.«133091_j23149873725488_1_alg».proof.Proof.LibMatmulIx
import proofs.«133091_j23149873725488_1_alg».proof.Proof.LibHostDotIx
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

/-- The zero offsets of a whole-buffer access, as the constant function. -/
theorem zeroOff2 : (![0, 0] : Fin 2 → Nat) = fun _ => 0 := funext fun a => by fin_cases a <;> rfl

/-- The tile's product at entry (p, q): the sum over the contracted coordinate of the products of the entries of the
    row tile and of the weights (the cast to the same shape and the narrowing of the operands are the identity over the
    extended reals). -/
theorem pay2_apply (x0 : Vec Ideal S5000x64 .f32) (x1 : Vec Ideal S64x32 .f32) (p : Fin 5000) (q : Fin 32) :
    k2_pay1 (F := Ideal) x0 x1 (ix2 p q) = ∑ k : Fin 64, x0 (ix2 p k) * x1 (ix2 k q) := by
  unfold k2_pay1
  rw [shapeCast_self]
  exact Cert.LibMatmulIx.matmul_zero_apply _ none (truncf .bf16 x0 bitsLt_bf16_f32) (truncf .bf16 x1 bitsLt_bf16_f32) p q

/-- The whole-array product at entry (r, q): the same sum along row r. -/
theorem lin2_apply (x : FVec Ideal S100000x64 .f32) (w : FVec Ideal S64x32 .f32) (r : Fin 100000) (q : Fin 32) :
    Cert.Spec.lin2 x w (ix2 r q) = ∑ k : Fin 64, x (ix2 r k) * w (ix2 k q) := by
  unfold Cert.Spec.lin2
  exact Cert.LibHostDotIx.dotGeneral_apply _ none x w r q

/-- The block indices of the three windows at every tile: the hidden array's and the output's tile t starts at block row t,
    the weights' block is always the whole array. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the hidden array's tile t is row 5000·t + p of the hidden array. -/
theorem rows2 (c : Dev nD) (t : Fin cfg2.N) (p : Fin 5000) (k : Fin 64) (r : Fin 100000)
    (hr : r.val = 5000 * t.val + p.val) :
    (iblk2 V c 0 t : Vec Ideal S5000x64 .f32) (ix2 p k) = (V c main_v45 : S100000x64.Idx → Elt Ideal .f32) (ix2 r k) := by
  obtain ⟨e0, e1, -⟩ := blockIdx2 t
  unfold iblk2
  rw [View.read_apply]
  show V c main_v45 (((cfg2.win 0).blk t).view.emb (ix2 p k)) = V c main_v45 (ix2 r k)
  congr 1
  funext a
  apply Fin.ext
  match a with
  | ⟨0, _⟩ => show win2_0.index t (0 : Fin 2) * 5000 + 1 * p.val = r.val; omega
  | ⟨1, _⟩ => show win2_0.index t (1 : Fin 2) * 64 + 1 * k.val = k.val; omega

/-- The weights' block at every tile is the weight array. -/
theorem weights2 (c : Dev nD) (t : Fin cfg2.N) (k : Fin 64) (q : Fin 32) :
    (iblk2 V c 1 t : Vec Ideal S64x32 .f32) (ix2 k q) = (V c main_arg4 : S64x32.Idx → Elt Ideal .f32) (ix2 k q) := by
  obtain ⟨-, -, e2, e3, -⟩ := blockIdx2 t
  unfold iblk2
  rw [View.read_apply]
  show V c main_arg4 (((cfg2.win 1).blk t).view.emb (ix2 k q)) = V c main_arg4 (ix2 k q)
  congr 1
  funext a
  apply Fin.ext
  match a with
  | ⟨0, _⟩ => show win2_1.index t (0 : Fin 2) * 64 + 1 * k.val = k.val; omega
  | ⟨1, _⟩ => show win2_1.index t (1 : Fin 2) * 32 + 1 * q.val = q.val; omega

/-- What tile t writes back is block t of the whole-array product of the arrays as the region finds them. -/
theorem flushed2_eq (c : Dev nD) (t : Fin cfg2.N) :
    (dat2 (F := Ideal) V c).flushed 2 t
      = ((cfg2.win 2).blk t).view.read (Elt Ideal) (Cert.Spec.lin2 (V c main_v45) (V c main_arg4)) := by
  show (cfg2.win 2).cut (grid2.coords t) ((dat2 V c).after 2 t) = _
  rw [after2_2]
  unfold out2_2
  rw [View.canon_unit_zero zeroOff2]
  simp only [View.ld_unit_zero (S := S5000x64) zeroOff2, View.ld_unit_zero (S := S64x32) zeroOff2]
  funext j
  obtain ⟨p, q, rfl⟩ : ∃ (p : Fin 5000) (q : Fin 32), j = ix2 p q := ⟨j 0, j 1, eq_ix2 j⟩
  obtain ⟨-, -, -, -, e4, e5⟩ := blockIdx2 t
  have ht : t.val < 20 := Nat.lt_of_lt_of_eq t.isLt (N_2 : cfg2.N = 20)
  have hemb : ((cfg2.win 2).blk t).view.emb (ix2 p q) = (ix2 (⟨5000 * t.val + p.val, by omega⟩ : Fin 100000) q : S100000x32.Idx) := by
    funext a
    apply Fin.ext
    match a with
    | ⟨0, _⟩ => show win2_2.index t (0 : Fin 2) * 5000 + 1 * p.val = 5000 * t.val + p.val; omega
    | ⟨1, _⟩ => show win2_2.index t (1 : Fin 2) * 32 + 1 * q.val = q.val; omega
  show k2_pay1 (iblk2 V c 0 t) (iblk2 V c 1 t) (ix2 p q)
    = Cert.Spec.lin2 (V c main_v45) (V c main_arg4) (((cfg2.win 2).blk t).view.emb (ix2 p q))
  rw [hemb, lin2_apply, pay2_apply]
  refine Finset.sum_congr rfl fun k _ => ?_
  rw [rows2 V c t p k ⟨5000 * t.val + p.val, by omega⟩ rfl, weights2 V c t k q]

/-- An index of the output array is in tile t's block iff each coordinate is in the block's range on its axis. -/
theorem mem_blk2 (t : Fin cfg2.N) (i : S100000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v46).slice (win2_2.rect t)).set ↔ _
  rw [View.set_slice_whole, Rect.mem_set_unit]
  exact Iff.rfl

/-- The output array after the region is the whole-array product: row r is written by tile r / 5000. -/
theorem final2 (c : Dev nD) :
    (dat2 (F := Ideal) V c).arrAt 2 cfg2.N = Cert.Spec.lin2 (V c main_v45) (V c main_arg4) :=
  (dat2 V c).arrAt_eq_of_cover 2 (Cert.Spec.lin2 (V c main_v45) (V c main_arg4)) (fun t _ => flushed2_eq V c t)
    fun (i : S100000x32.Idx) => by
      have hi0 : (i 0).val < 100000 := (i 0).isLt
      have hi1 : (i 1).val < 32 := (i 1).isLt
      have hN : cfg2.N = 20 := N_2
      refine ⟨⟨(i 0).val / 5000, by omega⟩, flush2_2 _, ?_⟩
      obtain ⟨-, -, -, -, e4, e5⟩ := blockIdx2 ⟨(i 0).val / 5000, by omega⟩
      rw [mem_blk2]
      intro a
      match a with
      | ⟨0, _⟩ =>
        show win2_2.index ⟨(i 0).val / 5000, _⟩ (0 : Fin 2) * 5000 ≤ (i 0).val
          ∧ (i 0).val < win2_2.index ⟨(i 0).val / 5000, _⟩ (0 : Fin 2) * 5000 + 5000
        rw [e4]; show (i 0).val / 5000 * 5000 ≤ (i 0).val ∧ (i 0).val < (i 0).val / 5000 * 5000 + 5000; omega
      | ⟨1, _⟩ =>
        show win2_2.index ⟨(i 0).val / 5000, _⟩ (1 : Fin 2) * 32 ≤ (i 1).val
          ∧ (i 1).val < win2_2.index ⟨(i 0).val / 5000, _⟩ (1 : Fin 2) * 32 + 32
        rw [e5]; omega

end Cert.KernelIdeal.RegionValue

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.Region3Pay.lean ====
/-
  Bias and log-softmax along a row, read entry by entry.

  For a row of logits z (k) = a (r, k) + b (0, k), k < 32, let M be the maximum of the z (k) joined with the value the
  maximum is started from (−∞), and s (k) = z (k) − M. The entry (r, q) of the result is s (q) − log (Σ_k exp (s (k))).
  Both the vector unit's body on a tile of 5000 rows and the host's composed operations on all 100000 rows compute this
  same expression of the row, the same operations in the same order.
-/
import proofs.«133091_j23149873725488_1_alg».proof.Proof.Gen.KernelIdeal.Frame
import proofs.«133091_j23149873725488_1_alg».proof.Proof.LibKeepdims
import proofs.«133091_j23149873725488_1_alg».proof.Proof.Spec
import Idealize.ShloMosaic.Lib.KernelVsHost
import Idealize.ShloMosaic.PureOps.Reduce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue.LogSoftmax

open Idealize.ShloMosaic Idealize.ShloMosaic.TcCoe Idealize.ShloMosaic.Tactic
open Idealize.ShloMosaic.ValueIdx
open Cert.KernelIdeal.Gen Cert.LibKeepdims

/-- The value the row maximum is started from: the word of −∞. -/
abbrev negInf : EReal := Ideal.ofBits .f32 0xFF800000#32

/-- The maximum of a row of 32 entries, joined with the starting value. -/
def rowMaxOf (z : Fin 32 → EReal) : EReal := (Finset.univ : Finset (Fin 32)).fold max negInf z

/-- Log-softmax of a row of 32 entries at entry `q`. -/
def lsmRow (z : Fin 32 → EReal) (q : Fin 32) : EReal :=
  (z q - rowMaxOf z) - Ideal.log (∑ k : Fin 32, Ideal.exp (z k - rowMaxOf z))

/-! ## Pointwise operations of the vector unit read at an index -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-! ## The body's payload on a tile of 5000 rows -/

/-- The tile's logits: the block's entry plus the bias row's entry of the same column. -/
theorem tile_logits_apply (x0 : Vec Ideal S5000x32 .f32) (x1 : Vec Ideal S1x32 .f32) (p : Fin 5000) (k : Fin 32) :
    addf (F := Ideal) (φ := .f32) x0 (broadcastTo S5000x32 x1 broadcasts_S1x32_S5000x32) (ix2 p k) = x0 (ix2 p k) + x1 (ix2 (0 : Fin 1) k) :=
  congrArg (x0 (ix2 p k) + ·) (broadcastTo_1b_ab_apply x1 broadcasts_S1x32_S5000x32 p k)

/-- The row maxima of a tile, kept as a column and repeated along the row: at `(p, q)` the maximum of row `p`. -/
theorem tile_rowMax_apply (Z : FVec Ideal S5000x32 .f32) (hφ : FKind.Formats .f32)
    (hacc : (0xFF800000#32 : BitVec 32) = 0xFF800000#32) (p : Fin 5000) (q : Fin 32) :
    broadcastTo S5000x32 (shapeCast S5000x1
        (multiReduction .maximumf [1] S5000 Z 0xFF800000#32 reduces_S5000x32_S5000 hφ hacc) shapeCasts_S5000_S5000x1)
      broadcasts_S5000x1_S5000x32 (ix2 p q) = rowMaxOf (fun k => Z (ix2 p k)) :=
  (broadcastTo_a1_ab_apply _ broadcasts_S5000x1_S5000x32 p q).trans
    ((shapeCast_a_a1_apply _ shapeCasts_S5000_S5000x1 p 0).trans
      (multiReduction_maximumf_axis1 Z 0xFF800000#32 reduces_S5000x32_S5000 hφ hacc p))

/-- The logarithm of the row sums of a tile, kept as a column and repeated along the row. -/
theorem tile_logRowSum_apply (E : FVec Ideal S5000x32 .f32) (hφ : FKind.Formats .f32)
    (hacc : (0x00000000#32 : BitVec 32) = 0x00000000#32) (p : Fin 5000) (q : Fin 32) :
    broadcastTo S5000x32 (log (shapeCast S5000x1
        (multiReduction .add [1] S5000 E 0x00000000#32 reduces_S5000x32_S5000 hφ hacc) shapeCasts_S5000_S5000x1))
      broadcasts_S5000x1_S5000x32 (ix2 p q) = Ideal.log (∑ k : Fin 32, E (ix2 p k)) :=
  (broadcastTo_a1_ab_apply _ broadcasts_S5000x1_S5000x32 p q).trans
    (congrArg Ideal.log ((shapeCast_a_a1_apply _ shapeCasts_S5000_S5000x1 p 0).trans
      (multiReduction_add_axis1 E 0x00000000#32 reduces_S5000x32_S5000 hφ hacc p)))

/-- The body's result on a tile, entry by entry: the log-softmax of the row of logits. -/
theorem k3_pay1_apply (x0 : Vec Ideal S5000x32 .f32) (x1 : Vec Ideal S1x32 .f32) (p : Fin 5000) (q : Fin 32) :
    k3_pay1 (F := Ideal) x0 x1 (ix2 p q) = lsmRow (fun k => x0 (ix2 p k) + x1 (ix2 (0 : Fin 1) k)) q := by
  unfold k3_pay1
  simp only [shapeCast_self]
  have hz : (fun k : Fin 32 => addf (F := Ideal) (φ := .f32) x0 (broadcastTo S5000x32 x1 broadcasts_S1x32_S5000x32) (ix2 p k))
      = fun k => x0 (ix2 p k) + x1 (ix2 (0 : Fin 1) k) := funext (tile_logits_apply x0 x1 p)
  generalize addf (F := Ideal) (φ := .f32) x0 (broadcastTo S5000x32 x1 broadcasts_S1x32_S5000x32) = Z at hz ⊢
  rw [← hz]
  unfold lsmRow
  refine congrArg₂ (· - ·) (congrArg (Z (ix2 p q) - ·) (tile_rowMax_apply Z _ _ p q)) ?_
  refine (tile_logRowSum_apply _ _ _ p q).trans (congrArg Ideal.log (Finset.sum_congr rfl fun k _ => ?_))
  exact congrArg (fun m => Ideal.exp (Z (ix2 p k) - m)) (tile_rowMax_apply Z _ _ p k)

/-! ## The host's operations of the reference read at an index -/

section HostReads
variable {α : Type}

/-- A column `[m, 1]` broadcast in dimensions `[0, 1]` to `[m, n]` reads, at `(r, q)`, the column's entry of row `r`. -/
theorem broadcastInDim_col_apply {m n : ℕ} (h : (⟨2, ![m, 1]⟩ : Shape).BroadcastsInDim ⟨2, ![m, n]⟩ ![0, 1])
    (v : (⟨2, ![m, 1]⟩ : Shape).Idx → α) (r : Fin m) (q : Fin n) :
    broadcastInDim ⟨2, ![m, n]⟩ ![0, 1] h v (ix2 r q) = v (ix2 r (0 : Fin 1)) := by
  refine broadcastInDim_apply ![0, 1] h v (ix2 r q) (ix2 r (0 : Fin 1)) fun ax => ?_
  match ax with
  | ⟨0, _⟩ =>
    show r.val = if m = 1 then 0 else r.val
    split
    · have := r.isLt; omega
    · rfl
  | ⟨1, _⟩ => rfl

/-- A vector `[m]` broadcast in dimension `[0]` to the column `[m, 1]` reads, at `(r, u)`, the vector's entry `r`. -/
theorem broadcastInDim_vec_col_apply {m : ℕ} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun ax => ?_
  match ax with
  | ⟨0, _⟩ =>
    show r.val = if m = 1 then 0 else r.val
    split
    · have := r.isLt; omega
    · rfl

end HostReads

/-- The host's maximum over the entries of each row, from its initial value: `[100000, 32]` reduced over axis 1. -/
theorem hostReduce_max_row_apply (z : FVec Ideal S100000x32 .f32) (init : S_.Idx → Ideal .f32) (r : Fin 100000) :
    Host.reduce (FloatOps.maximumf (F := Ideal) (φ := .f32)) z init Cert.ReferenceIdeal.Gen.reducesTo_S100000x32_S100000_d1
        Cert.ReferenceIdeal.Gen.h_S_ (ix1 r)
      = (Finset.univ : Finset (Fin 32)).fold max (init (Shape.Idx.first Cert.ReferenceIdeal.Gen.h_S_)) (fun k => z (ix2 r k)) := by
  rw [Host.reduce_eq_fold_single (FloatOps.maximumf (F := Ideal) (φ := .f32)) z init
    Cert.ReferenceIdeal.Gen.reducesTo_S100000x32_S100000_d1 (by decide : S100000x32.Reduces [1] S100000)
    Cert.ReferenceIdeal.Gen.h_S_ (ix1 r)]
  refine congrArg ((Finset.univ : Finset (Fin 32)).fold max _) (funext fun k => congrArg z (funext fun c => Fin.ext ?_))
  match c with
  | ⟨0, _⟩ => rfl
  | ⟨1, _⟩ => rfl

/-- The host's sum over the entries of each row, from its initial value: `[100000, 32]` reduced over axis 1. -/
theorem hostReduceAdd_row_apply (x : FVec Ideal S100000x32 .f32) (init : S_.Idx → Ideal .f32) (r : Fin 100000) :
    Host.reduceAdd (F := Ideal) x init Cert.ReferenceIdeal.Gen.reducesTo_S100000x32_S100000_d1 Cert.ReferenceIdeal.Gen.h_S_ (ix1 r)
      = init (Shape.Idx.first Cert.ReferenceIdeal.Gen.h_S_) + ∑ k : Fin 32, x (ix2 r k) := by
  simp only [Host.reduceAdd, Ideal.hostReduceAdd_def]
  rw [Ideal.hostReduceAdd_single Cert.ReferenceIdeal.Gen.reducesTo_S100000x32_S100000_d1 (by decide : S100000x32.Reduces [1] S100000)]
  refine congrArg (_ + ·) (Finset.sum_congr rfl fun k _ => congrArg x (funext fun c => Fin.ext ?_))
  match c with
  | ⟨0, _⟩ => rfl
  | ⟨1, _⟩ => rfl

theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-! ## The reference's log-softmax stage, entry by entry -/

theorem logits_apply (a : FVec Ideal S100000x32 .f32) (b : FVec Ideal S1x32 .f32) (r : Fin 100000) (k : Fin 32) :
    Cert.Spec.logits a b (ix2 r k) = a (ix2 r k) + b (ix2 (0 : Fin 1) k) :=
  congrArg (a (ix2 r k) + ·) (broadcastInDim_oneRow_apply Cert.ReferenceIdeal.Gen.bcast_S1x32_S100000x32_0_1 b r k)

theorem rowMax_apply (z : FVec Ideal S100000x32 .f32) (r : Fin 100000) :
    Cert.Spec.rowMax z (ix1 r) = rowMaxOf (fun k => z (ix2 r k)) := by
  unfold Cert.Spec.rowMax
  rw [maximumf_apply, hostReduce_max_row_apply]
  exact max_eq_right ((Finset.le_fold_max _).2 (Or.inl le_rfl))

theorem shifted_apply (z : FVec Ideal S100000x32 .f32) (r : Fin 100000) (k : Fin 32) :
    Cert.Spec.shifted z (ix2 r k) = z (ix2 r k) - rowMaxOf (fun k' => z (ix2 r k')) := by
  unfold Cert.Spec.shifted
  rw [subf_apply, broadcastInDim_col_apply, broadcastInDim_vec_col_apply, rowMax_apply]

theorem lsmOf_apply (s : FVec Ideal S100000x32 .f32) (r : Fin 100000) (q : Fin 32) :
    Cert.Spec.lsmOf s (ix2 r q) = s (ix2 r q) - Ideal.log (∑ k : Fin 32, Ideal.exp (s (ix2 r k))) := by
  unfold Cert.Spec.lsmOf
  rw [subf_apply, broadcastInDim_col_apply, hostLog_apply, broadcastInDim_vec_col_apply, hostReduceAdd_row_apply]
  show s (ix2 r q) - Ideal.log (Ideal.ofBits .f32 0x00000000#32 + ∑ k : Fin 32, Ideal.exp (s (ix2 r k))) = _
  rw [Ideal.ofBits_zero_f32, zero_add]

/-- The reference's stage at `(r, q)`: the log-softmax of row `r` of the logits. -/
theorem lsm_apply (a : FVec Ideal S100000x32 .f32) (b : FVec Ideal S1x32 .f32) (r : Fin 100000) (q : Fin 32) :
    Cert.Spec.lsm a b (ix2 r q) = lsmRow (fun k => a (ix2 r k) + b (ix2 (0 : Fin 1) k)) q := by
  unfold Cert.Spec.lsm
  rw [lsmOf_apply]
  simp only [shifted_apply, logits_apply]
  rfl

end Cert.KernelIdeal.RegionValue.LogSoftmax

end
-- ==== Proof.Region3.lean ====
/-
  The log-softmax region's output array as one function of its two input arrays.

  The region runs 20 points; point t reads rows [5000 t, 5000 t + 5000) of the 100000 × 32 input, the whole 1 × 32 bias
  row, and writes rows [5000 t, 5000 t + 5000) of the output. The body's result at row p of the tile depends only on
  row 5000 t + p of the input and on the bias row, and is the log-softmax of that row of logits; the 20 row blocks
  cover all 100000 rows (row r lies in block r / 5000). So the output array ends holding, at every (r, q), the
  log-softmax of row r of the logits: the reference's stage on whole arrays.
-/
import proofs.«133091_j23149873725488_1_alg».proof.Proof.Region3Pay

set_option maxRecDepth 16384

noncomputable section

open scoped BigOperators

namespace Cert.KernelIdeal.RegionValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Gen Cert.KernelIdeal.RegionValue.LogSoftmax

variable (V : (c : Dev nD) → (b : Ref sig .tc) → Buf (Elt Ideal) ((c : Thread nD τ).loc b))

/-- The body's accesses start at the origin of their staging buffers. -/
theorem off_zero3 : (![0, 0] : Fin 2 → Nat) = fun _ => 0 := funext fun a => by fin_cases a <;> rfl

/-- The index maps, decided over the 20 points: the row-block windows are at block `(t, 0)`, the bias window at `(0, 0)`. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the reference's stage of the arrays as the region finds them. -/
theorem flushed_eq3 (c : Dev nD) (t : Fin cfg3.N) :
    (dat3 (F := Ideal) V c).flushed 2 t
      = ((cfg3.win 2).blk t).view.read (Elt Ideal) (Cert.Spec.lsm (V c main_v59) (V c main_v60)) := by
  show (cfg3.win 2).cut (grid3.coords t) ((dat3 (F := Ideal) V c).after 2 t) = _
  rw [after3_2]
  unfold out3_2
  rw [View.canon_unit_zero off_zero3]
  simp only [View.ld_unit_zero (S := S5000x32) off_zero3, View.ld_unit_zero (S := S1x32) off_zero3]
  obtain ⟨e00, e01, e10, e11, e20, e21⟩ := index_maps3 t
  have ht : t.val < 20 := by have h := t.isLt; have hN : grid3.N = 20 := N_3; exact hN ▸ h
  funext j
  have hj0 : (j 0).val < 5000 := (j 0).isLt
  have hj1 : (j 1).val < 32 := (j 1).isLt
  obtain ⟨p, hp⟩ : ∃ p : Fin 5000, p.val = (j 0).val := ⟨⟨_, hj0⟩, rfl⟩
  obtain ⟨q, hq⟩ : ∃ q : Fin 32, q.val = (j 1).val := ⟨⟨_, hj1⟩, rfl⟩
  obtain ⟨r, hr⟩ : ∃ r : Fin 100000, r.val = 5000 * t.val + p.val := ⟨⟨5000 * t.val + p.val, by have := p.isLt; omega⟩, rfl⟩
  have hx : (win3 2).xinj (grid3.coords t) j = ix2 p q := by
    funext a; apply Fin.ext
    match a with
    | ⟨0, _⟩ => exact hp.symm
    | ⟨1, _⟩ => exact hq.symm
  have hemb : ((View.whole main_v61).slice ((win3 2).rect t)).emb j = ix2 r q := by
    funext a; apply Fin.ext
    match a with
    | ⟨0, _⟩ => show win3_2.index t (0 : Fin 2) * 5000 + 1 * (j 0).val = r.val; rw [e20, hr, hp]; omega
    | ⟨1, _⟩ => show win3_2.index t (1 : Fin 2) * 32 + 1 * (j 1).val = q.val; rw [e21, hq]; omega
  show k3_pay1 (F := Ideal) (iblk3 V c 0 t) (iblk3 V c 1 t) ((win3 2).xinj (grid3.coords t) j)
    = Cert.Spec.lsm (V c main_v59) (V c main_v60) (((View.whole main_v61).slice ((win3 2).rect t)).emb j)
  rw [hx, hemb, k3_pay1_apply, lsm_apply]
  refine congrArg (fun z => lsmRow z q) (funext fun k => ?_)
  have h0 : iblk3 V c 0 t (ix2 p k) = V c main_v59 (ix2 r k) := by
    show V c main_v59 (((cfg3.win 0).blk t).view.emb (ix2 p k)) = _
    refine congrArg (V c main_v59) (funext fun a => Fin.ext ?_)
    match a with
    | ⟨0, _⟩ => show win3_0.index t (0 : Fin 2) * 5000 + 1 * p.val = r.val; rw [e00, hr]; omega
    | ⟨1, _⟩ => show win3_0.index t (1 : Fin 2) * 32 + 1 * k.val = k.val; rw [e01]; omega
  have h1 : iblk3 V c 1 t (ix2 (0 : Fin 1) k) = V c main_v60 (ix2 (0 : Fin 1) k) := by
    show V c main_v60 (((cfg3.win 1).blk t).view.emb (ix2 (0 : Fin 1) k)) = _
    refine congrArg (V c main_v60) (funext fun a => Fin.ext ?_)
    match a with
    | ⟨0, _⟩ => show win3_1.index t (0 : Fin 2) * 1 + 1 * 0 = 0; rw [e10]
    | ⟨1, _⟩ => show win3_1.index t (1 : Fin 2) * 32 + 1 * k.val = k.val; rw [e11]; omega
  rw [h0, h1]

/-- An index of the output array lies in point `t`'s block exactly when each coordinate lies in the block's range on its axis. -/
theorem mem_block3 (t : Fin cfg3.N) (i : S100000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v61).slice (win3_2.rect t)).set ↔ _
  rw [View.set_slice_whole, Rect.mem_set_unit]
  exact Iff.rfl

/-- The 20 row blocks cover the output array: row `r` lies in the block of point `r / 5000`. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : grid3.N = 20 := N_3
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, e20, e21⟩ := index_maps3 t
  refine ⟨t, flush3_2 t, (mem_block3 t i).2 fun a => ?_⟩
  match a with
  | ⟨0, _⟩ =>
    show win3_2.index t (0 : Fin 2) * 5000 ≤ (i 0).val ∧ (i 0).val < win3_2.index t (0 : Fin 2) * 5000 + 5000
    rw [e20, ht]; omega
  | ⟨1, _⟩ =>
    show win3_2.index t (1 : Fin 2) * 32 ≤ (i 1).val ∧ (i 1).val < win3_2.index t (1 : Fin 2) * 32 + 32
    rw [e21]; omega

/-- The output array after the region: the reference's bias and log-softmax stage of the two input arrays. -/
theorem final3 (c : Dev nD) :
    (dat3 (F := Ideal) V c).arrAt 2 cfg3.N = Cert.Spec.lsm (V c main_v59) (V c main_v60) :=
  (dat3 (F := Ideal) V c).arrAt_eq_of_cover 2 (Cert.Spec.lsm (V c main_v59) (V c main_v60))
    (fun t _ => flushed_eq3 V c t) cover3

end Cert.KernelIdeal.RegionValue

end
-- ==== Proof.KernelValue.lean ====
/-
  The idealized kernel's result as ONE function of its six argument arrays. The buffer contents are followed through
  the nine segments of @main: a stretch of host operations is read back operation by operation (the edge list's two
  rows joined with the self loops, the degrees, the edge weights, and per layer the gather, the scaling and the
  scatter-add), and a TensorCore region replaces its output array by its dense stage of the two input arrays (the
  linear map, bias + rectifier, the second linear map, bias + log-softmax). Buffers a segment does not write are
  carried unchanged. The composition is `Spec.gcn` but for the two bias rows, which the kernel makes by a reshape
  where the reference broadcasts along a new axis: the same 1 × C array.
-/
import proofs.«133091_j23149873725488_1_alg».proof.Proof.Gen.KernelIdeal.Frame
import proofs.«133091_j23149873725488_1_alg».proof.Proof.Glue
import proofs.«133091_j23149873725488_1_alg».proof.Proof.BiasRow
import proofs.«133091_j23149873725488_1_alg».proof.Proof.Region0
import proofs.«133091_j23149873725488_1_alg».proof.Proof.Region1
import proofs.«133091_j23149873725488_1_alg».proof.Proof.Region2
import proofs.«133091_j23149873725488_1_alg».proof.Proof.Region3
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.Sem
open Idealize.ShloMosaic.StableHlo
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg) (c : Dev nD)

/-- The contents after two stretches of operations are those after the second, from those after the first. -/
theorem after_append {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => simp only [List.cons_append, after_cons]; exact ih _

/-! ## The host operations before region 0: the edges, the degrees, the edge weights -/

/-- The buffer contents after the first seven host operations: the edge list's rows joined with the self loops. -/
def WA : Valuation τ sig (Elt Ideal) :=
  StableHlo.after ((hostOps0 : List (HloOp τ sig (Elt Ideal))).take 7) (W0 m ρ c)

theorem W1_eq : W1 m ρ c = StableHlo.after ((hostOps0 : List (HloOp τ sig (Elt Ideal))).drop 7) (WA m ρ c) := by
  unfold WA; rw [← after_append, List.take_append_drop]

set_option maxHeartbeats 4000000 in
theorem WA_v3 : WA m ρ c (Proc.devRef .tc main_v3) = Cert.Spec.src (m ((c : Thread nD τ).loc main_arg1)) := by
  unfold WA; dsimp only [hostOps0, List.take]; after_results; rfl

set_option maxHeartbeats 4000000 in
theorem WA_v6 : WA m ρ c (Proc.devRef .tc main_v6) = Cert.Spec.dst (m ((c : Thread nD τ).loc main_arg1)) := by
  unfold WA; dsimp only [hostOps0, List.take]; after_results; rfl

set_option maxHeartbeats 4000000 in
theorem WA_arg (b : Ref sig .tc) (hb : b = main_arg0 ∨ b = main_arg2 ∨ b = main_arg3 ∨ b = main_arg4 ∨ b = main_arg5) :
    WA m ρ c (Proc.devRef .tc b) = m ((c : Thread nD τ).loc b) := by
  unfold WA; dsimp only [hostOps0, List.take]
  rcases hb with rfl | rfl | rfl | rfl | rfl <;> (after_results_simp <;> rfl)

/-! ### Stage lemmas at a variable valuation `V`: what a stretch of host operations leaves, from what it finds -/

section Stages
variable (V : Valuation τ sig (Elt Ideal)) (e : Cert.Spec.IArr Cert.ReferenceIdeal.S2x1600000)

set_option maxHeartbeats 4000000 in
/-- Operations 8 … 19: is the degree positive; its inverse square root; the zero that stands elsewhere. -/
theorem stage_deg_pos (h6 : V (Proc.devRef .tc main_v6) = Cert.Spec.dst e) :
    StableHlo.after ((hostOps0 : List (HloOp τ sig (Elt Ideal))).drop 7) V (Proc.devRef .tc main_v12)
      = cmpf (F := Ideal) .ogt (Cert.Spec.deg e)
          (broadcastInDim S100000 ![] bcast_S_S100000 (constant (F := Ideal) S_ .f32 0x00000000#32)) := by
  dsimp only [hostOps0, List.drop]; after_results_simp
  rw [h6]; rfl

set_option maxHeartbeats 4000000 in
theorem stage_deg_rsqrt (h6 : V (Proc.devRef .tc main_v6) = Cert.Spec.dst e) :
    StableHlo.after ((hostOps0 : List (HloOp τ sig (Elt Ideal))).drop 7) V (Proc.devRef .tc main_v13)
      = Host.rsqrt (F := Ideal) (Cert.Spec.deg e) := by
  dsimp only [hostOps0, List.drop]; after_results_simp
  rw [h6]; rfl

set_option maxHeartbeats 4000000 in
theorem stage_deg_zero :
    StableHlo.after ((hostOps0 : List (HloOp τ sig (Elt Ideal))).drop 7) V (Proc.devRef .tc main_cst_2)
      = constant (F := Ideal) S_ .f32 0x00000000#32 := by
  dsimp only [hostOps0, List.drop]; after_results_simp <;> rfl

set_option maxHeartbeats 4000000 in
/-- Operations 20 … 22, the selection, at any contents. -/
theorem stage_where :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  dsimp only [hostOps0_1]; after_results_simp
  rfl

/-- Operations 8 … 22: the degrees' inverse square roots, from the edge targets. -/
theorem stage_dis (h6 : V (Proc.devRef .tc main_v6) = Cert.Spec.dst e) :
    StableHlo.after hostOps0_1 (StableHlo.after ((hostOps0 : List (HloOp τ sig (Elt Ideal))).drop 7) V) (Proc.devRef .tc main_v14)
      = Cert.Spec.dis e := by
  rw [stage_where, stage_deg_pos V e h6, stage_deg_rsqrt V e h6, stage_deg_zero]
  rfl

set_option maxHeartbeats 4000000 in
/-- Those operations write none of these buffers. -/
theorem stage_dis_carry (b : Ref sig .tc)
    (hb : b = main_v3 ∨ b = main_v6 ∨ b = main_arg0 ∨ b = main_arg2 ∨ b = main_arg3 ∨ b = main_arg4 ∨ b = main_arg5) :
    StableHlo.after hostOps0_1 (StableHlo.after ((hostOps0 : List (HloOp τ sig (Elt Ideal))).drop 7) V) (Proc.devRef .tc b)
      = V (Proc.devRef .tc b) := by
  dsimp only [hostOps0, hostOps0_1, List.drop]
  rcases hb with rfl | rfl | rfl | rfl | rfl | rfl | rfl <;> (after_results_simp <;> rfl)

set_option maxHeartbeats 4000000 in
/-- The nineteen operations before region 0: the edge weights, from the edge ends and the inverse square roots. -/
theorem stage_norm (h3 : V (Proc.devRef .tc main_v3) = Cert.Spec.src e) (h6 : V (Proc.devRef .tc main_v6) = Cert.Spec.dst e)
    (h14 : V (Proc.devRef .tc main_v14) = Cert.Spec.dis e) :
    StableHlo.after hostOps0_2 V (Proc.devRef .tc main_v29) = Cert.Spec.norm e := by
  dsimp only [hostOps0_2]; after_results_simp
  rw [h3, h6, h14]; rfl

set_option maxHeartbeats 4000000 in
theorem stage_norm_carry (b : Ref sig .tc)
    (hb : b = main_v3 ∨ b = main_v6 ∨ b = main_arg0 ∨ b = main_arg2 ∨ b = main_arg3 ∨ b = main_arg4 ∨ b = main_arg5) :
    StableHlo.after hostOps0_2 V (Proc.devRef .tc b) = V (Proc.devRef .tc b) := by
  dsimp only [hostOps0_2]
  rcases hb with rfl | rfl | rfl | rfl | rfl | rfl | rfl <;> (after_results_simp <;> rfl)

set_option maxHeartbeats 4000000 in
/-- The operations between regions 0 and 1: layer 1's aggregation of the linear map's output. -/
theorem stage_agg1 (z : Cert.Spec.FArr Cert.ReferenceIdeal.S100000x64) (h30 : V (Proc.devRef .tc main_v30) = z)
    (h3 : V (Proc.devRef .tc main_v3) = Cert.Spec.src e) (h6 : V (Proc.devRef .tc main_v6) = Cert.Spec.dst e)
    (h29 : V (Proc.devRef .tc main_v29) = Cert.Spec.norm e) :
    StableHlo.after hostOps1 V (Proc.devRef .tc main_v43) = Cert.Spec.agg1 z e := by
  dsimp only [hostOps1]; after_results_simp
  rw [h30, h3, h6, h29]; rfl

set_option maxHeartbeats 4000000 in
/-- … and the first bias as a row. -/
theorem stage_bias1 : StableHlo.after hostOps1 V (Proc.devRef .tc main_v44)
    = shapeCast S1x64 (V (Proc.devRef .tc main_arg3)) shapeCasts_S64_S1x64 := by
  dsimp only [hostOps1]; after_results_simp <;> rfl

set_option maxHeartbeats 4000000 in
theorem stage_agg1_carry (b : Ref sig .tc)
    (hb : b = main_v3 ∨ b = main_v6 ∨ b = main_v29 ∨ b = main_arg4 ∨ b = main_arg5) :
    StableHlo.after hostOps1 V (Proc.devRef .tc b) = V (Proc.devRef .tc b) := by
  dsimp only [hostOps1]
  rcases hb with rfl | rfl | rfl | rfl | rfl <;> (after_results_simp <;> rfl)

set_option maxHeartbeats 4000000 in
/-- The operations between regions 2 and 3: layer 2's aggregation of the second linear map's output. -/
theorem stage_agg2 (z : Cert.Spec.FArr Cert.ReferenceIdeal.S100000x32) (h46 : V (Proc.devRef .tc main_v46) = z)
    (h3 : V (Proc.devRef .tc main_v3) = Cert.Spec.src e) (h6 : V (Proc.devRef .tc main_v6) = Cert.Spec.dst e)
    (h29 : V (Proc.devRef .tc main_v29) = Cert.Spec.norm e) :
    StableHlo.after hostOps3 V (Proc.devRef .tc main_v59) = Cert.Spec.agg2 z e := by
  dsimp only [hostOps3]; after_results_simp
  rw [h46, h3, h6, h29]; rfl

set_option maxHeartbeats 4000000 in
/-- … and the second bias as a row. -/
theorem stage_bias2 : StableHlo.after hostOps3 V (Proc.devRef .tc main_v60)
    = shapeCast S1x32 (V (Proc.devRef .tc main_arg5)) shapeCasts_S32_S1x32 := by
  dsimp only [hostOps3]; after_results_simp <;> rfl

end Stages

/-! ## The chain through the nine segments -/

section Chain

theorem W2_v14 : W2 m ρ c (Proc.devRef .tc main_v14) = Cert.Spec.dis (m ((c : Thread nD τ).loc main_arg1)) := by
  show StableHlo.after hostOps0_1 (W1 m ρ c) _ = _
  rw [W1_eq]; exact stage_dis _ _ (WA_v6 m ρ c)

theorem W2_carry (b : Ref sig .tc)
    (hb : b = main_v3 ∨ b = main_v6 ∨ b = main_arg0 ∨ b = main_arg2 ∨ b = main_arg3 ∨ b = main_arg4 ∨ b = main_arg5) :
    W2 m ρ c (Proc.devRef .tc b) = WA m ρ c (Proc.devRef .tc b) := by
  show StableHlo.after hostOps0_1 (W1 m ρ c) _ = _
  rw [W1_eq]; exact stage_dis_carry _ b hb

theorem W3_carry (b : Ref sig .tc)
    (hb : b = main_v3 ∨ b = main_v6 ∨ b = main_arg0 ∨ b = main_arg2 ∨ b = main_arg3 ∨ b = main_arg4 ∨ b = main_arg5) :
    W3 m ρ c (Proc.devRef .tc b) = WA m ρ c (Proc.devRef .tc b) :=
  (stage_norm_carry (W2 m ρ c) b hb).trans (W2_carry m ρ c b hb)

theorem W3_v3 : W3 m ρ c (Proc.devRef .tc main_v3) = Cert.Spec.src (m ((c : Thread nD τ).loc main_arg1)) :=
  (W3_carry m ρ c main_v3 (by simp)).trans (WA_v3 m ρ c)
theorem W3_v6 : W3 m ρ c (Proc.devRef .tc main_v6) = Cert.Spec.dst (m ((c : Thread nD τ).loc main_arg1)) :=
  (W3_carry m ρ c main_v6 (by simp)).trans (WA_v6 m ρ c)
theorem W3_arg (b : Ref sig .tc) (hb : b = main_arg0 ∨ b = main_arg2 ∨ b = main_arg3 ∨ b = main_arg4 ∨ b = main_arg5) :
    W3 m ρ c (Proc.devRef .tc b) = m ((c : Thread nD τ).loc b) :=
  (W3_carry m ρ c b (by rcases hb with h | h | h | h | h <;> simp [h])).trans (WA_arg m ρ c b hb)

/-- The edge weights at region 0's entry. -/
theorem W3_v29 : W3 m ρ c (Proc.devRef .tc main_v29) = Cert.Spec.norm (m ((c : Thread nD τ).loc main_arg1)) :=
  stage_norm (W2 m ρ c) (m ((c : Thread nD τ).loc main_arg1)) ((W2_carry m ρ c main_v3 (by simp)).trans (WA_v3 m ρ c))
    ((W2_carry m ρ c main_v6 (by simp)).trans (WA_v6 m ρ c)) (W2_v14 m ρ c)

/-- Region 0 leaves the first linear map of the features. -/
theorem W4_v30 : W4 m ρ c (Proc.devRef .tc main_v30)
    = Cert.Spec.lin1 (m ((c : Thread nD τ).loc main_arg0)) (m ((c : Thread nD τ).loc main_arg2)) := by
  refine (W4_arr m ρ c 2).trans ?_
  rw [Cert.KernelIdeal.RegionValue.final0 (V3 m ρ) c]
  show Cert.Spec.lin1 (W3 m ρ c (Proc.devRef .tc main_arg0)) (W3 m ρ c (Proc.devRef .tc main_arg2)) = _
  rw [W3_arg m ρ c main_arg0 (by simp), W3_arg m ρ c main_arg2 (by simp)]

theorem W4_v3 : W4 m ρ c (Proc.devRef .tc main_v3) = Cert.Spec.src (m ((c : Thread nD τ).loc main_arg1)) :=
  (W4_of_ne m ρ c main_v3 (by decide)).trans (W3_v3 m ρ c)
theorem W4_v6 : W4 m ρ c (Proc.devRef .tc main_v6) = Cert.Spec.dst (m ((c : Thread nD τ).loc main_arg1)) :=
  (W4_of_ne m ρ c main_v6 (by decide)).trans (W3_v6 m ρ c)
theorem W4_v29 : W4 m ρ c (Proc.devRef .tc main_v29) = Cert.Spec.norm (m ((c : Thread nD τ).loc main_arg1)) :=
  (W4_of_ne m ρ c main_v29 (by decide)).trans (W3_v29 m ρ c)

/-- Layer 1's aggregation, and the first bias as a row, at region 1's entry. -/
theorem W5_v43 : W5 m ρ c (Proc.devRef .tc main_v43)
    = Cert.Spec.agg1 (Cert.Spec.lin1 (m ((c : Thread nD τ).loc main_arg0)) (m ((c : Thread nD τ).loc main_arg2))) (m ((c : Thread nD τ).loc main_arg1)) :=
  stage_agg1 (W4 m ρ c) (m ((c : Thread nD τ).loc main_arg1)) _ (W4_v30 m ρ c) (W4_v3 m ρ c) (W4_v6 m ρ c) (W4_v29 m ρ c)

theorem W5_v44 : W5 m ρ c (Proc.devRef .tc main_v44)
    = shapeCast S1x64 (m ((c : Thread nD τ).loc main_arg3)) shapeCasts_S64_S1x64 := by
  refine (stage_bias1 (W4 m ρ c)).trans ?_
  rw [W4_of_ne m ρ c main_arg3 (by decide), W3_arg m ρ c main_arg3 (by simp)]

/-- Region 1 leaves the hidden features. -/
theorem W6_v45 : W6 m ρ c (Proc.devRef .tc main_v45)
    = Cert.Spec.act1 (Cert.Spec.agg1 (Cert.Spec.lin1 (m ((c : Thread nD τ).loc main_arg0)) (m ((c : Thread nD τ).loc main_arg2))) (m ((c : Thread nD τ).loc main_arg1)))
        (shapeCast S1x64 (m ((c : Thread nD τ).loc main_arg3)) shapeCasts_S64_S1x64) := by
  refine (W6_arr m ρ c 2).trans ?_
  rw [Cert.KernelIdeal.Region1Value.final1 (V5 m ρ) c]
  show Cert.Spec.act1 (W5 m ρ c (Proc.devRef .tc main_v43)) (W5 m ρ c (Proc.devRef .tc main_v44)) = _
  rw [W5_v43, W5_v44]

/-- A buffer that region 0, the host operations after it and region 1 leave alone holds at region 2's entry what it
    held at region 0's. -/
theorem W6_carry (b : Ref sig .tc) (hb : b = main_v3 ∨ b = main_v6 ∨ b = main_v29 ∨ b = main_arg4 ∨ b = main_arg5)
    (h0 : ∀ w, Pipeline.arrRef spec0 w ≠ b) (h1 : ∀ w, Pipeline.arrRef spec1 w ≠ b) :
    W6 m ρ c (Proc.devRef .tc b) = W3 m ρ c (Proc.devRef .tc b) :=
  (W6_of_ne m ρ c b h1).trans ((stage_agg1_carry (W4 m ρ c) b hb).trans (W4_of_ne m ρ c b h0))

/-- Region 2 leaves the second linear map of the hidden features. -/
theorem W7_v46 : W7 m ρ c (Proc.devRef .tc main_v46)
    = Cert.Spec.lin2 (Cert.Spec.act1 (Cert.Spec.agg1 (Cert.Spec.lin1 (m ((c : Thread nD τ).loc main_arg0)) (m ((c : Thread nD τ).loc main_arg2))) (m ((c : Thread nD τ).loc main_arg1)))
        (shapeCast S1x64 (m ((c : Thread nD τ).loc main_arg3)) shapeCasts_S64_S1x64)) (m ((c : Thread nD τ).loc main_arg4)) := by
  refine (W7_arr m ρ c 2).trans ?_
  rw [Cert.KernelIdeal.RegionValue.final2 (V6 m ρ) c]
  show Cert.Spec.lin2 (W6 m ρ c (Proc.devRef .tc main_v45)) (W6 m ρ c (Proc.devRef .tc main_arg4)) = _
  rw [W6_v45, W6_carry m ρ c main_arg4 (by simp) (by decide) (by decide), W3_arg m ρ c main_arg4 (by simp)]

theorem W7_carry (b : Ref sig .tc) (hb : b = main_v3 ∨ b = main_v6 ∨ b = main_v29 ∨ b = main_arg4 ∨ b = main_arg5)
    (h0 : ∀ w, Pipeline.arrRef spec0 w ≠ b) (h1 : ∀ w, Pipeline.arrRef spec1 w ≠ b) (h2 : ∀ w, Pipeline.arrRef spec2 w ≠ b) :
    W7 m ρ c (Proc.devRef .tc b) = W3 m ρ c (Proc.devRef .tc b) :=
  (W7_of_ne m ρ c b h2).trans (W6_carry m ρ c b hb h0 h1)

/-- Layer 2's aggregation, and the second bias as a row, at region 3's entry. -/
theorem W8_v59 : W8 m ρ c (Proc.devRef .tc main_v59)
    = Cert.Spec.agg2 (Cert.Spec.lin2 (Cert.Spec.act1 (Cert.Spec.agg1 (Cert.Spec.lin1 (m ((c : Thread nD τ).loc main_arg0)) (m ((c : Thread nD τ).loc main_arg2))) (m ((c : Thread nD τ).loc main_arg1)))
        (shapeCast S1x64 (m ((c : Thread nD τ).loc main_arg3)) shapeCasts_S64_S1x64)) (m ((c : Thread nD τ).loc main_arg4))) (m ((c : Thread nD τ).loc main_arg1)) :=
  stage_agg2 (W7 m ρ c) (m ((c : Thread nD τ).loc main_arg1)) _ (W7_v46 m ρ c)
    ((W7_carry m ρ c main_v3 (by simp) (by decide) (by decide) (by decide)).trans (W3_v3 m ρ c))
    ((W7_carry m ρ c main_v6 (by simp) (by decide) (by decide) (by decide)).trans (W3_v6 m ρ c))
    ((W7_carry m ρ c main_v29 (by simp) (by decide) (by decide) (by decide)).trans (W3_v29 m ρ c))

theorem W8_v60 : W8 m ρ c (Proc.devRef .tc main_v60)
    = shapeCast S1x32 (m ((c : Thread nD τ).loc main_arg5)) shapeCasts_S32_S1x32 := by
  refine (stage_bias2 (W7 m ρ c)).trans ?_
  rw [W7_carry m ρ c main_arg5 (by simp) (by decide) (by decide) (by decide), W3_arg m ρ c main_arg5 (by simp)]

/-- THE RESULT: region 3 leaves the whole network of the six argument arrays. -/
theorem W9_v61 : W9 m ρ c (Proc.devRef .tc main_v61)
    = Cert.Spec.gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W9_arr m ρ c 2).trans ?_
  rw [Cert.KernelIdeal.RegionValue.final3 (V8 m ρ) c]
  show Cert.Spec.lsm (W8 m ρ c (Proc.devRef .tc main_v59)) (W8 m ρ c (Proc.devRef .tc main_v60)) = _
  rw [W8_v59, W8_v60, Cert.Spec.shapeCast_eq_biasRow1, Cert.Spec.shapeCast_eq_biasRow2]
  rfl

end Chain

end Cert.KernelIdeal.RunValue

end
-- ==== Proof.RefRunValue.lean ====
/-
  The reference program's result as the network of its six argument arrays.

  The reference's 131 host operations are read in consecutive stretches, each from an arbitrary valuation of the
  buffers: (0) the edge sources and targets and the first linear map; (1a–1c) the degrees, the inverse square roots
  where the degree is positive, the edge weights; (2) the first aggregation; (3) bias, rectifier and the second linear
  map; (4a–4c) the edge weights, computed a second time; (5) the second aggregation; (6a–6e) the logits, their row
  maxima, the shifted logits, the row sums of their exponentials, the log-softmax. A buffer a stretch does not write
  keeps its contents, and the contents after a concatenation of stretches are the later stretch's after the earlier's;
  so the result buffer holds
  log-softmax (agg2 (relu (agg1 (x·W1) + b1) · W2) + b2) of the launch contents, and the arguments are unchanged.
-/
import proofs.«133091_j23149873725488_1_alg».proof.Proof.Gen.ReferenceIdeal
import proofs.«133091_j23149873725488_1_alg».proof.Proof.Glue
import proofs.«133091_j23149873725488_1_alg».proof.Proof.RefOps
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Spec (IArr FArr)

variable {F : FTy → Type} [FloatOps F]

/-! ## The stretches -/

/-- Operations 0 … 7 of the reference's 131: the edge sources and targets, the first linear map. -/
def stage0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Operations 8 … 18 of the reference's 131: the degrees, their positivity and their inverse square roots. -/
def stage1a : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Operations 19 … 21 of the reference's 131: the choice between the inverse square root and zero. -/
def stage1b : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 22 … 40 of the reference's 131: the edge weights. -/
def stage1c : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- Operations 41 … 56 of the reference's 131: the first aggregation. -/
def stage2 : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v7 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 57 … 63 of the reference's 131: bias, rectifier, second linear map. -/
def stage3 : List (HloOp τ sig (Elt F)) :=
  [ unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) ]

/-- Operations 64 … 74 of the reference's 131: the degrees, their positivity and their inverse square roots, a second time. -/
def stage4a : List (HloOp τ sig (Elt F)) :=
  [ nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32) ]

/-- Operations 75 … 77 of the reference's 131: the choice between the inverse square root and zero, a second time. -/
def stage4b : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select ]

/-- Operations 78 … 96 of the reference's 131: the edge weights, a second time. -/
def stage4c : List (HloOp τ sig (Elt F)) :=
  [ nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)) ]

/-- Operations 97 … 112 of the reference's 131: the second aggregation. -/
def stage5 : List (HloOp τ sig (Elt F)) :=
  [ nullary main_c_17 (constantI S_ 32 0#32),
    unary main_c_17 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v48 main_v77 main_v78 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v71 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x32 ![0, 1] bcast_S1700000x1_S1700000x32_0_1 : (⟨S1700000x1, .f32⟩ : BufTy).Contents (Elt F) → (⟨S1700000x32, .f32⟩ : BufTy).Contents (Elt F)),
    binary main_v78 main_v80 main_v81 (mulf : (⟨S1700000x32, .f32⟩ : BufTy).Contents (Elt F) → (⟨S1700000x32, .f32⟩ : BufTy).Contents (Elt F) → (⟨S1700000x32, .f32⟩ : BufTy).Contents (Elt F)),
    nullary main_cst_19 (constant S_ .f32 0x00000000#32),
    unary main_cst_19 main_v82 (broadcastInDim S100000x32 ![] bcast_S_S100000x32 : (⟨S_, .f32⟩ : BufTy).Contents (Elt F) → (⟨S100000x32, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)) ]

/-- Operations 113 … 115 of the reference's 131: the logits. -/
def stage6a : List (HloOp τ sig (Elt F)) :=
  [ unary main_arg5 main_v85 (broadcastInDim S1x32 ![1] bcast_S32_S1x32_1 : (⟨S32, .f32⟩ : BufTy).Contents (Elt F) → (⟨S1x32, .f32⟩ : BufTy).Contents (Elt F)),
    unary main_v85 main_v86 (broadcastInDim S100000x32 ![0, 1] bcast_S1x32_S100000x32_0_1 : (⟨S1x32, .f32⟩ : BufTy).Contents (Elt F) → (⟨S100000x32, .f32⟩ : BufTy).Contents (Elt F)),
    binary main_v84 main_v86 main_v87 (addf : (⟨S100000x32, .f32⟩ : BufTy).Contents (Elt F) → (⟨S100000x32, .f32⟩ : BufTy).Contents (Elt F) → (⟨S100000x32, .f32⟩ : BufTy).Contents (Elt F)) ]

/-- Operations 116 … 120 of the reference's 131: the row maxima of the logits. -/
def stage6b : List (HloOp τ sig (Elt F)) :=
  [ TRef.nullary (TRef.of (T := ⟨S_, .f32⟩) main_call3_cst) (constant S_ .f32 0xFF800000#32),
    TRef.binary (TRef.of (T := ⟨S100000x32, .f32⟩) main_v87) (TRef.of (T := ⟨S_, .f32⟩) main_call3_cst) (TRef.of (T := ⟨S100000, .f32⟩) main_call3_v0) (fun x v => Host.reduce FloatOps.maximumf x v reducesTo_S100000x32_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Operations 121 … 123 of the reference's 131: the logits shifted by their row maxima. -/
def stage6c : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v87) (TRef.of (T := ⟨S100000x32, .f32⟩) main_call3_v4) (TRef.of (T := ⟨S100000x32, .f32⟩) main_call3_v5) subf ]

/-- Operations 124 … 126 of the reference's 131: the row sums of the exponentials. -/
def stage6d : List (HloOp τ sig (Elt F)) :=
  [ TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_) ]

/-- Operations 127 … 130 of the reference's 131: the shifted logits minus the logarithms of the row sums. -/
def stage6e : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v88) subf ]

/-! ## What each stretch writes, and keeps -/

/-- The buffers stretch 0 writes. -/
abbrev stage0_W : List (Ref sig .tc) := [main_v0, main_v1, main_v2, main_v3, main_v4, main_v5, main_v6, main_v7]
theorem stage0_writes : (stage0 : List (HloOp τ sig (Elt F))).Forall fun op => op.writes ⊆ (stage0_W.map (Proc.devRef (τ := τ) .tc)).toFinset := by
  unfold stage0
  simp only [List.Forall, nullary_writes, unary_writes, binary_writes, ternary_writes, reshape_writes, Finset.singleton_subset_iff, List.mem_toFinset]
  refine ⟨?_, ?_, ?_, ?_, ?_, ?_, ?_, ?_⟩ <;> exact List.mem_map_of_mem (by decide)
/-- A buffer stretch 0 does not write keeps its contents. -/
theorem keep0 (W : Valuation τ sig (Elt F)) (r : Ref sig .tc) (h : r ∉ stage0_W) :
    after stage0 W (Proc.devRef .tc r) = W (Proc.devRef .tc r) :=
  after_of_writes_sub stage0 W stage0_writes h

/-- The buffers stretch 1a writes. -/
abbrev stage1a_W : List (Ref sig .tc) := [main_cst, main_v8, main_cst_0, main_v9, main_v10, main_v11, main_cst_1, main_v12, main_v13, main_v14, main_cst_2]
theorem stage1a_writes : (stage1a : List (HloOp τ sig (Elt F))).Forall fun op => op.writes ⊆ (stage1a_W.map (Proc.devRef (τ := τ) .tc)).toFinset := by
  unfold stage1a
  simp only [List.Forall, nullary_writes, unary_writes, binary_writes, ternary_writes, reshape_writes, Finset.singleton_subset_iff, List.mem_toFinset]
  refine ⟨?_, ?_, ?_, ?_, ?_, ?_, ?_, ?_, ?_, ?_, ?_⟩ <;> exact List.mem_map_of_mem (by decide)
/-- A buffer stretch 1a does not write keeps its contents. -/
theorem keep1a (W : Valuation τ sig (Elt F)) (r : Ref sig .tc) (h : r ∉ stage1a_W) :
    after stage1a W (Proc.devRef .tc r) = W (Proc.devRef .tc r) :=
  after_of_writes_sub stage1a W stage1a_writes h

/-- The buffers stretch 1b writes. -/
abbrev stage1b_W : List (Ref sig .tc) := [main_call0_v0, main_call0_v1, main_v15]
theorem stage1b_writes : (stage1b : List (HloOp τ sig (Elt F))).Forall fun op => op.writes ⊆ (stage1b_W.map (Proc.devRef (τ := τ) .tc)).toFinset := by
  unfold stage1b
  simp only [List.Forall, nullary_writes, unary_writes, binary_writes, ternary_writes, reshape_writes, Finset.singleton_subset_iff, List.mem_toFinset]
  refine ⟨?_, ?_, ?_⟩ <;> exact List.mem_map_of_mem (by decide)
/-- A buffer stretch 1b does not write keeps its contents. -/
theorem keep1b (W : Valuation τ sig (Elt F)) (r : Ref sig .tc) (h : r ∉ stage1b_W) :
    after stage1b W (Proc.devRef .tc r) = W (Proc.devRef .tc r) :=
  after_of_writes_sub stage1b W stage1b_writes h

/-- The buffers stretch 1c writes. -/
abbrev stage1c_W : List (Ref sig .tc) := [main_c, main_v16, main_v17, main_c_3, main_v18, main_v19, main_v20, main_v21, main_v22, main_c_4, main_v23, main_v24, main_c_5, main_v25, main_v26, main_v27, main_v28, main_v29, main_v30]
theorem stage1c_writes : (stage1c : List (HloOp τ sig (Elt F))).Forall fun op => op.writes ⊆ (stage1c_W.map (Proc.devRef (τ := τ) .tc)).toFinset := by
  unfold stage1c
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)
/-- A buffer stretch 1c does not write keeps its contents. -/
theorem keep1c (W : Valuation τ sig (Elt F)) (r : Ref sig .tc) (h : r ∉ stage1c_W) :
    after stage1c W (Proc.devRef .tc r) = W (Proc.devRef .tc r) :=
  after_of_writes_sub stage1c W stage1c_writes h

/-- The buffers stretch 2 writes. -/
abbrev stage2_W : List (Ref sig .tc) := [main_c_6, main_v31, main_v32, main_c_7, main_v33, main_v34, main_v35, main_v36, main_v37, main_v38, main_v39, main_v40, main_cst_8, main_v41, main_v42, main_v43]
theorem stage2_writes : (stage2 : List (HloOp τ sig (Elt F))).Forall fun op => op.writes ⊆ (stage2_W.map (Proc.devRef (τ := τ) .tc)).toFinset := by
  unfold stage2
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_⟩ <;> exact List.mem_map_of_mem (by decide)
/-- A buffer stretch 2 does not write keeps its contents. -/
theorem keep2 (W : Valuation τ sig (Elt F)) (r : Ref sig .tc) (h : r ∉ stage2_W) :
    after stage2 W (Proc.devRef .tc r) = W (Proc.devRef .tc r) :=
  after_of_writes_sub stage2 W stage2_writes h

/-- The buffers stretch 3 writes. -/
abbrev stage3_W : List (Ref sig .tc) := [main_v44, main_v45, main_v46, main_call1_cst, main_call1_v0, main_v47, main_v48]
theorem stage3_writes : (stage3 : List (HloOp τ sig (Elt F))).Forall fun op => op.writes ⊆ (stage3_W.map (Proc.devRef (τ := τ) .tc)).toFinset := by
  unfold stage3
  simp only [List.Forall, nullary_writes, unary_writes, binary_writes, ternary_writes, reshape_writes, Finset.singleton_subset_iff, List.mem_toFinset]
  refine ⟨?_, ?_, ?_, ?_, ?_, ?_, ?_⟩ <;> exact List.mem_map_of_mem (by decide)
/-- A buffer stretch 3 does not write keeps its contents. -/
theorem keep3 (W : Valuation τ sig (Elt F)) (r : Ref sig .tc) (h : r ∉ stage3_W) :
    after stage3 W (Proc.devRef .tc r) = W (Proc.devRef .tc r) :=
  after_of_writes_sub stage3 W stage3_writes h

/-- The buffers stretch 4a writes. -/
abbrev stage4a_W : List (Ref sig .tc) := [main_cst_9, main_v49, main_cst_10, main_v50, main_v51, main_v52, main_cst_11, main_v53, main_v54, main_v55, main_cst_12]
theorem stage4a_writes : (stage4a : List (HloOp τ sig (Elt F))).Forall fun op => op.writes ⊆ (stage4a_W.map (Proc.devRef (τ := τ) .tc)).toFinset := by
  unfold stage4a
  simp only [List.Forall, nullary_writes, unary_writes, binary_writes, ternary_writes, reshape_writes, Finset.singleton_subset_iff, List.mem_toFinset]
  refine ⟨?_, ?_, ?_, ?_, ?_, ?_, ?_, ?_, ?_, ?_, ?_⟩ <;> exact List.mem_map_of_mem (by decide)
/-- A buffer stretch 4a does not write keeps its contents. -/
theorem keep4a (W : Valuation τ sig (Elt F)) (r : Ref sig .tc) (h : r ∉ stage4a_W) :
    after stage4a W (Proc.devRef .tc r) = W (Proc.devRef .tc r) :=
  after_of_writes_sub stage4a W stage4a_writes h

/-- The buffers stretch 4b writes. -/
abbrev stage4b_W : List (Ref sig .tc) := [main_call2_v0, main_call2_v1, main_v56]
theorem stage4b_writes : (stage4b : List (HloOp τ sig (Elt F))).Forall fun op => op.writes ⊆ (stage4b_W.map (Proc.devRef (τ := τ) .tc)).toFinset := by
  unfold stage4b
  simp only [List.Forall, nullary_writes, unary_writes, binary_writes, ternary_writes, reshape_writes, Finset.singleton_subset_iff, List.mem_toFinset]
  refine ⟨?_, ?_, ?_⟩ <;> exact List.mem_map_of_mem (by decide)
/-- A buffer stretch 4b does not write keeps its contents. -/
theorem keep4b (W : Valuation τ sig (Elt F)) (r : Ref sig .tc) (h : r ∉ stage4b_W) :
    after stage4b W (Proc.devRef .tc r) = W (Proc.devRef .tc r) :=
  after_of_writes_sub stage4b W stage4b_writes h

/-- The buffers stretch 4c writes. -/
abbrev stage4c_W : List (Ref sig .tc) := [main_c_13, main_v57, main_v58, main_c_14, main_v59, main_v60, main_v61, main_v62, main_v63, main_c_15, main_v64, main_v65, main_c_16, main_v66, main_v67, main_v68, main_v69, main_v70, main_v71]
theorem stage4c_writes : (stage4c : List (HloOp τ sig (Elt F))).Forall fun op => op.writes ⊆ (stage4c_W.map (Proc.devRef (τ := τ) .tc)).toFinset := by
  unfold stage4c
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_⟩ <;> exact List.mem_map_of_mem (by decide)
/-- A buffer stretch 4c does not write keeps its contents. -/
theorem keep4c (W : Valuation τ sig (Elt F)) (r : Ref sig .tc) (h : r ∉ stage4c_W) :
    after stage4c W (Proc.devRef .tc r) = W (Proc.devRef .tc r) :=
  after_of_writes_sub stage4c W stage4c_writes h

/-- The buffers stretch 5 writes. -/
abbrev stage5_W : List (Ref sig .tc) := [main_c_17, main_v72, main_v73, main_c_18, main_v74, main_v75, main_v76, main_v77, main_v78, main_v79, main_v80, main_v81, main_cst_19, main_v82, main_v83, main_v84]
theorem stage5_writes : (stage5 : List (HloOp τ sig (Elt F))).Forall fun op => op.writes ⊆ (stage5_W.map (Proc.devRef (τ := τ) .tc)).toFinset := by
  unfold stage5
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_⟩ <;> exact List.mem_map_of_mem (by decide)
/-- A buffer stretch 5 does not write keeps its contents. -/
theorem keep5 (W : Valuation τ sig (Elt F)) (r : Ref sig .tc) (h : r ∉ stage5_W) :
    after stage5 W (Proc.devRef .tc r) = W (Proc.devRef .tc r) :=
  after_of_writes_sub stage5 W stage5_writes h

/-- The buffers stretch 6a writes. -/
abbrev stage6a_W : List (Ref sig .tc) := [main_v85, main_v86, main_v87]
theorem stage6a_writes : (stage6a : List (HloOp τ sig (Elt F))).Forall fun op => op.writes ⊆ (stage6a_W.map (Proc.devRef (τ := τ) .tc)).toFinset := by
  unfold stage6a
  simp only [List.Forall, nullary_writes, unary_writes, binary_writes, ternary_writes, reshape_writes, Finset.singleton_subset_iff, List.mem_toFinset]
  refine ⟨?_, ?_, ?_⟩ <;> exact List.mem_map_of_mem (by decide)
/-- A buffer stretch 6a does not write keeps its contents. -/
theorem keep6a (W : Valuation τ sig (Elt F)) (r : Ref sig .tc) (h : r ∉ stage6a_W) :
    after stage6a W (Proc.devRef .tc r) = W (Proc.devRef .tc r) :=
  after_of_writes_sub stage6a W stage6a_writes h

/-- The buffers stretch 6b writes. -/
abbrev stage6b_W : List (Ref sig .tc) := [main_call3_cst, main_call3_v0, main_call3_cst_0, main_call3_v1, main_call3_v2]
theorem stage6b_writes : (stage6b : List (HloOp τ sig (Elt F))).Forall fun op => op.writes ⊆ (stage6b_W.map (Proc.devRef (τ := τ) .tc)).toFinset := by
  unfold stage6b
  simp only [List.Forall, nullary_writes, unary_writes, binary_writes, ternary_writes, reshape_writes, Finset.singleton_subset_iff, List.mem_toFinset]
  refine ⟨?_, ?_, ?_, ?_, ?_⟩ <;> exact List.mem_map_of_mem (by decide)
/-- A buffer stretch 6b does not write keeps its contents. -/
theorem keep6b (W : Valuation τ sig (Elt F)) (r : Ref sig .tc) (h : r ∉ stage6b_W) :
    after stage6b W (Proc.devRef .tc r) = W (Proc.devRef .tc r) :=
  after_of_writes_sub stage6b W stage6b_writes h

/-- The buffers stretch 6c writes. -/
abbrev stage6c_W : List (Ref sig .tc) := [main_call3_v3, main_call3_v4, main_call3_v5]
theorem stage6c_writes : (stage6c : List (HloOp τ sig (Elt F))).Forall fun op => op.writes ⊆ (stage6c_W.map (Proc.devRef (τ := τ) .tc)).toFinset := by
  unfold stage6c
  simp only [List.Forall, nullary_writes, unary_writes, binary_writes, ternary_writes, reshape_writes, Finset.singleton_subset_iff, List.mem_toFinset]
  refine ⟨?_, ?_, ?_⟩ <;> exact List.mem_map_of_mem (by decide)
/-- A buffer stretch 6c does not write keeps its contents. -/
theorem keep6c (W : Valuation τ sig (Elt F)) (r : Ref sig .tc) (h : r ∉ stage6c_W) :
    after stage6c W (Proc.devRef .tc r) = W (Proc.devRef .tc r) :=
  after_of_writes_sub stage6c W stage6c_writes h

/-- The buffers stretch 6d writes. -/
abbrev stage6d_W : List (Ref sig .tc) := [main_call3_v6, main_call3_cst_1, main_call3_v7]
theorem stage6d_writes : (stage6d : List (HloOp τ sig (Elt F))).Forall fun op => op.writes ⊆ (stage6d_W.map (Proc.devRef (τ := τ) .tc)).toFinset := by
  unfold stage6d
  simp only [List.Forall, nullary_writes, unary_writes, binary_writes, ternary_writes, reshape_writes, Finset.singleton_subset_iff, List.mem_toFinset]
  refine ⟨?_, ?_, ?_⟩ <;> exact List.mem_map_of_mem (by decide)
/-- A buffer stretch 6d does not write keeps its contents. -/
theorem keep6d (W : Valuation τ sig (Elt F)) (r : Ref sig .tc) (h : r ∉ stage6d_W) :
    after stage6d W (Proc.devRef .tc r) = W (Proc.devRef .tc r) :=
  after_of_writes_sub stage6d W stage6d_writes h

/-- The buffers stretch 6e writes. -/
abbrev stage6e_W : List (Ref sig .tc) := [main_call3_v8, main_call3_v9, main_call3_v10, main_v88]
theorem stage6e_writes : (stage6e : List (HloOp τ sig (Elt F))).Forall fun op => op.writes ⊆ (stage6e_W.map (Proc.devRef (τ := τ) .tc)).toFinset := by
  unfold stage6e
  simp only [List.Forall, nullary_writes, unary_writes, binary_writes, ternary_writes, reshape_writes, Finset.singleton_subset_iff, List.mem_toFinset]
  refine ⟨?_, ?_, ?_, ?_⟩ <;> exact List.mem_map_of_mem (by decide)
/-- A buffer stretch 6e does not write keeps its contents. -/
theorem keep6e (W : Valuation τ sig (Elt F)) (r : Ref sig .tc) (h : r ∉ stage6e_W) :
    after stage6e W (Proc.devRef .tc r) = W (Proc.devRef .tc r) :=
  after_of_writes_sub stage6e W stage6e_writes h

/-! ## What each stretch computes, from any contents `W` of the buffers it reads -/

section Values
variable (W : Valuation τ sig (Elt Ideal))

set_option maxHeartbeats 4000000 in
/-- Stretch 0 leaves the edge sources … -/
theorem stage0_src : after stage0 W (Proc.devRef .tc main_v3) = Cert.Spec.src (W (Proc.devRef .tc main_arg1)) := by
  unfold stage0
  after_results
  rfl

set_option maxHeartbeats 4000000 in
/-- … the edge targets … -/
theorem stage0_dst : after stage0 W (Proc.devRef .tc main_v6) = Cert.Spec.dst (W (Proc.devRef .tc main_arg1)) := by
  unfold stage0
  after_results
  rfl

/-- … and the first linear map of the features. -/
theorem stage0_lin1 : after stage0 W (Proc.devRef .tc main_v7) = Cert.Spec.lin1 (W (Proc.devRef .tc main_arg0)) (W (Proc.devRef .tc main_arg2)) := by
  unfold stage0
  after_results
  rfl

set_option maxHeartbeats 4000000 in
/-- Stretch 1a leaves the positivity of the degrees … -/
theorem stage1a_pos (e : IArr S2x1600000) (h6 : W (Proc.devRef .tc main_v6) = Cert.Spec.dst e) :
    after stage1a W (Proc.devRef .tc main_v13) = cmpf (F := Ideal) .ogt (Cert.Spec.deg e) (broadcastInDim S100000 ![] bcast_S_S100000 (constant (F := Ideal) S_ .f32 0x00000000#32)) := by
  unfold stage1a
  after_results_simp
  rw [h6]
  rfl

set_option maxHeartbeats 4000000 in
/-- … their inverse square roots … -/
theorem stage1a_rsqrt (e : IArr S2x1600000) (h6 : W (Proc.devRef .tc main_v6) = Cert.Spec.dst e) :
    after stage1a W (Proc.devRef .tc main_v14) = Host.rsqrt (F := Ideal) (Cert.Spec.deg e) := by
  unfold stage1a
  after_results_simp
  rw [h6]
  rfl

/-- … and a zero. -/
theorem stage1a_zero : after stage1a W (Proc.devRef .tc main_cst_2) = (constant (F := Ideal) S_ .f32 0x00000000#32) := by
  unfold stage1a
  after_results_simp

/-- Stretch 1b chooses, entry by entry, between what it finds in the second buffer and a zero broadcast. -/
theorem stage1b_where : after stage1b W (Proc.devRef .tc main_v15)
    = select (W (Proc.devRef .tc main_v13)) (W (Proc.devRef .tc main_v14)) (broadcastInDim S100000 ![] bcast_S_S100000 (id (W (Proc.devRef .tc main_cst_2)))) := by
  unfold stage1b
  after_results_simp
  rfl

set_option maxHeartbeats 4000000 in
/-- Stretch 1c leaves the edge weights. -/
theorem stage1c_norm (e : IArr S2x1600000) (h3 : W (Proc.devRef .tc main_v3) = Cert.Spec.src e) (h6 : W (Proc.devRef .tc main_v6) = Cert.Spec.dst e)
    (hd : W (Proc.devRef .tc main_v15) = Cert.Spec.dis e) : after stage1c W (Proc.devRef .tc main_v30) = Cert.Spec.norm e := by
  unfold stage1c
  after_results_simp
  rw [h3, h6, hd]
  rfl

set_option maxHeartbeats 4000000 in
/-- Stretch 2 leaves the first aggregation of the features it finds. -/
theorem stage2_agg1 (e : IArr S2x1600000) (z : FArr S100000x64) (h3 : W (Proc.devRef .tc main_v3) = Cert.Spec.src e)
    (h6 : W (Proc.devRef .tc main_v6) = Cert.Spec.dst e) (h7 : W (Proc.devRef .tc main_v7) = z) (h30 : W (Proc.devRef .tc main_v30) = Cert.Spec.norm e) :
    after stage2 W (Proc.devRef .tc main_v43) = Cert.Spec.agg1 z e := by
  unfold stage2
  after_results_simp
  rw [h3, h6, h7, h30]
  rfl

set_option maxHeartbeats 4000000 in
/-- Stretch 3 leaves the second linear map of the rectified, biased features. -/
theorem stage3_lin2 (a : FArr S100000x64) (b1 : FArr S64) (w2 : FArr S64x32) (h43 : W (Proc.devRef .tc main_v43) = a)
    (hb : W (Proc.devRef .tc main_arg3) = b1) (hw : W (Proc.devRef .tc main_arg4) = w2) :
    after stage3 W (Proc.devRef .tc main_v48) = Cert.Spec.lin2 (Cert.Spec.act1 a (Cert.Spec.biasRow1 b1)) w2 := by
  unfold stage3
  after_results_simp
  rw [h43, hb, hw]
  rfl

set_option maxHeartbeats 4000000 in
/-- Stretch 4a leaves the positivity of the degrees … -/
theorem stage4a_pos (e : IArr S2x1600000) (h6 : W (Proc.devRef .tc main_v6) = Cert.Spec.dst e) :
    after stage4a W (Proc.devRef .tc main_v54) = cmpf (F := Ideal) .ogt (Cert.Spec.deg e) (broadcastInDim S100000 ![] bcast_S_S100000 (constant (F := Ideal) S_ .f32 0x00000000#32)) := by
  unfold stage4a
  after_results_simp
  rw [h6]
  rfl

set_option maxHeartbeats 4000000 in
/-- … their inverse square roots … -/
theorem stage4a_rsqrt (e : IArr S2x1600000) (h6 : W (Proc.devRef .tc main_v6) = Cert.Spec.dst e) :
    after stage4a W (Proc.devRef .tc main_v55) = Host.rsqrt (F := Ideal) (Cert.Spec.deg e) := by
  unfold stage4a
  after_results_simp
  rw [h6]
  rfl

/-- … and a zero. -/
theorem stage4a_zero : after stage4a W (Proc.devRef .tc main_cst_12) = (constant (F := Ideal) S_ .f32 0x00000000#32) := by
  unfold stage4a
  after_results_simp

/-- Stretch 4b chooses, entry by entry, between what it finds in the second buffer and a zero broadcast. -/
theorem stage4b_where : after stage4b W (Proc.devRef .tc main_v56)
    = select (W (Proc.devRef .tc main_v54)) (W (Proc.devRef .tc main_v55)) (broadcastInDim S100000 ![] bcast_S_S100000 (id (W (Proc.devRef .tc main_cst_12)))) := by
  unfold stage4b
  after_results_simp
  rfl

set_option maxHeartbeats 4000000 in
/-- Stretch 4c leaves the edge weights. -/
theorem stage4c_norm (e : IArr S2x1600000) (h3 : W (Proc.devRef .tc main_v3) = Cert.Spec.src e) (h6 : W (Proc.devRef .tc main_v6) = Cert.Spec.dst e)
    (hd : W (Proc.devRef .tc main_v56) = Cert.Spec.dis e) : after stage4c W (Proc.devRef .tc main_v71) = Cert.Spec.norm e := by
  unfold stage4c
  after_results_simp
  rw [h3, h6, hd]
  rfl

set_option maxHeartbeats 4000000 in
/-- Stretch 5 leaves the second aggregation of the features it finds. -/
theorem stage5_agg2 (e : IArr S2x1600000) (z : FArr S100000x32) (h3 : W (Proc.devRef .tc main_v3) = Cert.Spec.src e)
    (h6 : W (Proc.devRef .tc main_v6) = Cert.Spec.dst e) (h48 : W (Proc.devRef .tc main_v48) = z) (h71 : W (Proc.devRef .tc main_v71) = Cert.Spec.norm e) :
    after stage5 W (Proc.devRef .tc main_v84) = Cert.Spec.agg2 z e := by
  unfold stage5
  after_results_simp
  rw [h3, h6, h48, h71]
  rfl

/-- Stretch 6a leaves the logits. -/
theorem stage6a_logits (a : FArr S100000x32) (b2 : FArr S32) (h84 : W (Proc.devRef .tc main_v84) = a) (hb : W (Proc.devRef .tc main_arg5) = b2) :
    after stage6a W (Proc.devRef .tc main_v87) = Cert.Spec.logits a (Cert.Spec.biasRow2 b2) := by
  unfold stage6a
  after_results_simp
  rw [h84, hb]
  rfl

/-! ### The log-softmax, piece by piece -/

/-- Contents moved to a typed reference's buffer and back are the contents. -/
theorem ofBuf_toBuf {T : BufTy} (x : TRef sig T) (v : T.Contents (Elt F)) : x.ofBuf (x.toBuf v) = v := by
  obtain ⟨r, h, hd, hu⟩ := x
  subst h
  rfl

/-- Contents of the row maxima's type are contents of the row maxima's buffer, unchanged. -/
theorem toBuf_rowMax (p1 p2 p3) (y : FArr S100000) :
    (TRef.of (T := ⟨S100000, .f32⟩) main_call3_v2 p1 p2 p3).toBuf (Val := Elt Ideal) y = y := rfl

/-- Contents of the logits' buffer are contents of the logits' type, unchanged. -/
theorem ofBuf_logits (p1 p2 p3) (y : FArr S100000x32) :
    (TRef.of (T := ⟨S100000x32, .f32⟩) main_v87 p1 p2 p3).ofBuf (Val := Elt Ideal) y = y := rfl

/-- A 100000 × 32 array minus a 100000-vector repeated along the rows. -/
def subRows (z : FArr S100000x32) (m : FArr S100000) : FArr S100000x32 :=
  subf (F := Ideal) z (broadcastInDim S100000x32 ![0, 1] bcast_S100000x1_S100000x32_0_1 (broadcastInDim S100000x1 ![0] bcast_S100000_S100000x1_0 m))

/-- The row sums of the exponentials. -/
def sumExp (s : FArr S100000x32) : FArr S100000 :=
  Host.reduceAdd (F := Ideal) (Host.exp (F := Ideal) s) (constant (F := Ideal) S_ .f32 0x00000000#32) reducesTo_S100000x32_S100000_d1 h_S_

/-- A 100000 × 32 array minus the logarithms of a 100000-vector repeated along the rows. -/
def subLogRows (s : FArr S100000x32) (t : FArr S100000) : FArr S100000x32 :=
  subf (F := Ideal) s (broadcastInDim S100000x32 ![0, 1] bcast_S100000x1_S100000x32_0_1 (Host.log (F := Ideal) (broadcastInDim S100000x1 ![0] bcast_S100000_S100000x1_0 t)))

/-- Stretch 6b leaves the row maxima of the logits it finds. -/
theorem stage6b_rowMax : after stage6b W (Proc.devRef .tc main_call3_v2) = Cert.Spec.rowMax (W (Proc.devRef .tc main_v87)) := by
  unfold stage6b
  after_results_simp
  simp only [ofBuf_toBuf]
  rw [toBuf_rowMax, ofBuf_logits]
  rfl

/-- Stretch 6c subtracts from the logits it finds the row maxima it finds. -/
theorem stage6c_shift : after stage6c W (Proc.devRef .tc main_call3_v5) = subRows (W (Proc.devRef .tc main_v87)) (W (Proc.devRef .tc main_call3_v2)) := by
  unfold stage6c
  after_results_simp
  rfl

/-- Stretch 6d leaves the row sums of the exponentials of what it finds. -/
theorem stage6d_sum : after stage6d W (Proc.devRef .tc main_call3_v7) = sumExp (W (Proc.devRef .tc main_call3_v5)) := by
  unfold stage6d
  after_results_simp
  rfl

/-- Stretch 6e subtracts from the shifted logits it finds the logarithms of the row sums it finds. -/
theorem stage6e_sub : after stage6e W (Proc.devRef .tc main_v88) = subLogRows (W (Proc.devRef .tc main_call3_v5)) (W (Proc.devRef .tc main_call3_v7)) := by
  unfold stage6e
  after_results_simp
  rfl

end Values

/-! ## The stretches are the program -/

/-- The program's list of operations is the stretches in a row. -/
theorem ops_stages : (RefOps.ops : List (HloOp τ sig (Elt F)))
    = stage0 ++ (stage1a ++ (stage1b ++ (stage1c ++ (stage2 ++ (stage3 ++ (stage4a ++ (stage4b ++ (stage4c ++ (stage5 ++ (stage6a ++ (stage6b ++ (stage6c ++ (stage6d ++ (stage6e)))))))))))))) := rfl

/-- The buffers after the program are the buffers after the stretches, one after the other. -/
theorem after_ops (V : Valuation τ sig (Elt F)) :
    after RefOps.ops V = (after stage6e (after stage6d (after stage6c (after stage6b (after stage6a (after stage5 (after stage4c (after stage4b (after stage4a (after stage3 (after stage2 (after stage1c (after stage1b (after stage1a (after stage0 V))))))))))))))) := by
  rw [ops_stages, after_append, after_append, after_append, after_append, after_append, after_append, after_append, after_append, after_append, after_append, after_append, after_append, after_append, after_append]

/-- A buffer no stretch writes keeps its contents through the program. -/
theorem after_ops_keep (V : Valuation τ sig (Elt F)) (r : Ref sig .tc)
    (h0 : r ∉ stage0_W)
    (h1a : r ∉ stage1a_W)
    (h1b : r ∉ stage1b_W)
    (h1c : r ∉ stage1c_W)
    (h2 : r ∉ stage2_W)
    (h3 : r ∉ stage3_W)
    (h4a : r ∉ stage4a_W)
    (h4b : r ∉ stage4b_W)
    (h4c : r ∉ stage4c_W)
    (h5 : r ∉ stage5_W)
    (h6a : r ∉ stage6a_W)
    (h6b : r ∉ stage6b_W)
    (h6c : r ∉ stage6c_W)
    (h6d : r ∉ stage6d_W)
    (h6e : r ∉ stage6e_W) :
    after RefOps.ops V (Proc.devRef .tc r) = V (Proc.devRef .tc r) := by
  rw [after_ops, keep6e _ r h6e, keep6d _ r h6d, keep6c _ r h6c, keep6b _ r h6b, keep6a _ r h6a, keep5 _ r h5, keep4c _ r h4c, keep4b _ r h4b, keep4a _ r h4a, keep3 _ r h3, keep2 _ r h2, keep1c _ r h1c, keep1b _ r h1b, keep1a _ r h1a, keep0 _ r h0]

set_option maxHeartbeats 4000000 in
/-- The result buffer after the program holds the network of the six argument arrays. -/
theorem after_ops_result (V : Valuation τ sig (Elt Ideal)) :
    after RefOps.ops V (Proc.devRef .tc main_v88)
      = Cert.Spec.gcn (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]
  have a3 : (after stage0 V) (Proc.devRef .tc main_v3) = Cert.Spec.src (V (Proc.devRef .tc main_arg1)) :=
    stage0_src V
  have a6 : (after stage0 V) (Proc.devRef .tc main_v6) = Cert.Spec.dst (V (Proc.devRef .tc main_arg1)) :=
    stage0_dst V
  have a7 : (after stage0 V) (Proc.devRef .tc main_v7) = (Cert.Spec.lin1 (V (Proc.devRef .tc main_arg0)) (V (Proc.devRef .tc main_arg2))) :=
    stage0_lin1 V
  have b13 : (after stage1a (after stage0 V)) (Proc.devRef .tc main_v13) = cmpf (F := Ideal) .ogt (Cert.Spec.deg (V (Proc.devRef .tc main_arg1))) (broadcastInDim S100000 ![] bcast_S_S100000 (constant (F := Ideal) S_ .f32 0x00000000#32)) :=
    stage1a_pos (after stage0 V) (V (Proc.devRef .tc main_arg1)) a6
  have b14 : (after stage1a (after stage0 V)) (Proc.devRef .tc main_v14) = Host.rsqrt (F := Ideal) (Cert.Spec.deg (V (Proc.devRef .tc main_arg1))) :=
    stage1a_rsqrt (after stage0 V) (V (Proc.devRef .tc main_arg1)) a6
  have b0 : (after stage1a (after stage0 V)) (Proc.devRef .tc main_cst_2) = (constant (F := Ideal) S_ .f32 0x00000000#32) :=
    stage1a_zero (after stage0 V)
  have c15 : (after stage1b (after stage1a (after stage0 V))) (Proc.devRef .tc main_v15) = Cert.Spec.dis (V (Proc.devRef .tc main_arg1)) :=
    (stage1b_where (after stage1a (after stage0 V))).trans (by rw [b13, b14, b0]; rfl)
  have c3 : (after stage1b (after stage1a (after stage0 V))) (Proc.devRef .tc main_v3) = Cert.Spec.src (V (Proc.devRef .tc main_arg1)) :=
    ((keep1b (after stage1a (after stage0 V)) main_v3 (by decide)).trans (keep1a (after stage0 V) main_v3 (by decide))).trans a3
  have c6 : (after stage1b (after stage1a (after stage0 V))) (Proc.devRef .tc main_v6) = Cert.Spec.dst (V (Proc.devRef .tc main_arg1)) :=
    ((keep1b (after stage1a (after stage0 V)) main_v6 (by decide)).trans (keep1a (after stage0 V) main_v6 (by decide))).trans a6
  have d30 : (after stage1c (after stage1b (after stage1a (after stage0 V)))) (Proc.devRef .tc main_v30) = Cert.Spec.norm (V (Proc.devRef .tc main_arg1)) :=
    stage1c_norm (after stage1b (after stage1a (after stage0 V))) (V (Proc.devRef .tc main_arg1)) c3 c6 c15
  have d3 : (after stage1c (after stage1b (after stage1a (after stage0 V)))) (Proc.devRef .tc main_v3) = Cert.Spec.src (V (Proc.devRef .tc main_arg1)) :=
    (keep1c (after stage1b (after stage1a (after stage0 V))) main_v3 (by decide)).trans c3
  have d6 : (after stage1c (after stage1b (after stage1a (after stage0 V)))) (Proc.devRef .tc main_v6) = Cert.Spec.dst (V (Proc.devRef .tc main_arg1)) :=
    (keep1c (after stage1b (after stage1a (after stage0 V))) main_v6 (by decide)).trans c6
  have d7 : (after stage1c (after stage1b (after stage1a (after stage0 V)))) (Proc.devRef .tc main_v7) = (Cert.Spec.lin1 (V (Proc.devRef .tc main_arg0)) (V (Proc.devRef .tc main_arg2))) :=
    ((keep1c (after stage1b (after stage1a (after stage0 V))) main_v7 (by decide)).trans ((keep1b (after stage1a (after stage0 V)) main_v7 (by decide)).trans (keep1a (after stage0 V) main_v7 (by decide)))).trans a7
  have f43 : (after stage2 (after stage1c (after stage1b (after stage1a (after stage0 V))))) (Proc.devRef .tc main_v43) = (Cert.Spec.agg1 (Cert.Spec.lin1 (V (Proc.devRef .tc main_arg0)) (V (Proc.devRef .tc main_arg2))) (V (Proc.devRef .tc main_arg1))) :=
    stage2_agg1 (after stage1c (after stage1b (after stage1a (after stage0 V)))) (V (Proc.devRef .tc main_arg1)) (Cert.Spec.lin1 (V (Proc.devRef .tc main_arg0)) (V (Proc.devRef .tc main_arg2))) d3 d6 d7 d30
  have f3 : (after stage2 (after stage1c (after stage1b (after stage1a (after stage0 V))))) (Proc.devRef .tc main_v3) = Cert.Spec.src (V (Proc.devRef .tc main_arg1)) :=
    (keep2 (after stage1c (after stage1b (after stage1a (after stage0 V)))) main_v3 (by decide)).trans d3
  have f6 : (after stage2 (after stage1c (after stage1b (after stage1a (after stage0 V))))) (Proc.devRef .tc main_v6) = Cert.Spec.dst (V (Proc.devRef .tc main_arg1)) :=
    (keep2 (after stage1c (after stage1b (after stage1a (after stage0 V)))) main_v6 (by decide)).trans d6
  have p3 : (after stage2 (after stage1c (after stage1b (after stage1a (after stage0 V))))) (Proc.devRef .tc main_arg3) = (V (Proc.devRef .tc main_arg3)) :=
    ((keep2 (after stage1c (after stage1b (after stage1a (after stage0 V)))) main_arg3 (by decide)).trans ((keep1c (after stage1b (after stage1a (after stage0 V))) main_arg3 (by decide)).trans ((keep1b (after stage1a (after stage0 V)) main_arg3 (by decide)).trans ((keep1a (after stage0 V) main_arg3 (by decide)).trans (keep0 V main_arg3 (by decide))))))
  have p4 : (after stage2 (after stage1c (after stage1b (after stage1a (after stage0 V))))) (Proc.devRef .tc main_arg4) = (V (Proc.devRef .tc main_arg4)) :=
    ((keep2 (after stage1c (after stage1b (after stage1a (after stage0 V)))) main_arg4 (by decide)).trans ((keep1c (after stage1b (after stage1a (after stage0 V))) main_arg4 (by decide)).trans ((keep1b (after stage1a (after stage0 V)) main_arg4 (by decide)).trans ((keep1a (after stage0 V) main_arg4 (by decide)).trans (keep0 V main_arg4 (by decide))))))
  have g48 : (after stage3 (after stage2 (after stage1c (after stage1b (after stage1a (after stage0 V)))))) (Proc.devRef .tc main_v48) = (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) :=
    stage3_lin2 (after stage2 (after stage1c (after stage1b (after stage1a (after stage0 V))))) (Cert.Spec.agg1 (Cert.Spec.lin1 (V (Proc.devRef .tc main_arg0)) (V (Proc.devRef .tc main_arg2))) (V (Proc.devRef .tc main_arg1))) (V (Proc.devRef .tc main_arg3)) (V (Proc.devRef .tc main_arg4)) f43 p3 p4
  have g3 : (after stage3 (after stage2 (after stage1c (after stage1b (after stage1a (after stage0 V)))))) (Proc.devRef .tc main_v3) = Cert.Spec.src (V (Proc.devRef .tc main_arg1)) :=
    (keep3 (after stage2 (after stage1c (after stage1b (after stage1a (after stage0 V))))) main_v3 (by decide)).trans f3
  have g6 : (after stage3 (after stage2 (after stage1c (after stage1b (after stage1a (after stage0 V)))))) (Proc.devRef .tc main_v6) = Cert.Spec.dst (V (Proc.devRef .tc main_arg1)) :=
    (keep3 (after stage2 (after stage1c (after stage1b (after stage1a (after stage0 V))))) main_v6 (by decide)).trans f6
  have h54 : (after stage4a (after stage3 (after stage2 (after stage1c (after stage1b (after stage1a (after stage0 V))))))) (Proc.devRef .tc main_v54) = cmpf (F := Ideal) .ogt (Cert.Spec.deg (V (Proc.devRef .tc main_arg1))) (broadcastInDim S100000 ![] bcast_S_S100000 (constant (F := Ideal) S_ .f32 0x00000000#32)) :=
    stage4a_pos (after stage3 (after stage2 (after stage1c (after stage1b (after stage1a (after stage0 V)))))) (V (Proc.devRef .tc main_arg1)) g6
  have h55 : (after stage4a (after stage3 (after stage2 (after stage1c (after stage1b (after stage1a (after stage0 V))))))) (Proc.devRef .tc main_v55) = Host.rsqrt (F := Ideal) (Cert.Spec.deg (V (Proc.devRef .tc main_arg1))) :=
    stage4a_rsqrt (after stage3 (after stage2 (after stage1c (after stage1b (after stage1a (after stage0 V)))))) (V (Proc.devRef .tc main_arg1)) g6
  have h0 : (after stage4a (after stage3 (after stage2 (after stage1c (after stage1b (after stage1a (after stage0 V))))))) (Proc.devRef .tc main_cst_12) = (constant (F := Ideal) S_ .f32 0x00000000#32) :=
    stage4a_zero (after stage3 (after stage2 (after stage1c (after stage1b (after stage1a (after stage0 V))))))
  have i56 : (after stage4b (after stage4a (after stage3 (after stage2 (after stage1c (after stage1b (after stage1a (after stage0 V)))))))) (Proc.devRef .tc main_v56) = Cert.Spec.dis (V (Proc.devRef .tc main_arg1)) :=
    (stage4b_where (after stage4a (after stage3 (after stage2 (after stage1c (after stage1b (after stage1a (after stage0 V)))))))).trans (by rw [h54, h55, h0]; rfl)
  have i3 : (after stage4b (after stage4a (after stage3 (after stage2 (after stage1c (after stage1b (after stage1a (after stage0 V)))))))) (Proc.devRef .tc main_v3) = Cert.Spec.src (V (Proc.devRef .tc main_arg1)) :=
    ((keep4b (after stage4a (after stage3 (after stage2 (after stage1c (after stage1b (after stage1a (after stage0 V))))))) main_v3 (by decide)).trans (keep4a (after stage3 (after stage2 (after stage1c (after stage1b (after stage1a (after stage0 V)))))) main_v3 (by decide))).trans g3
  have i6 : (after stage4b (after stage4a (after stage3 (after stage2 (after stage1c (after stage1b (after stage1a (after stage0 V)))))))) (Proc.devRef .tc main_v6) = Cert.Spec.dst (V (Proc.devRef .tc main_arg1)) :=
    ((keep4b (after stage4a (after stage3 (after stage2 (after stage1c (after stage1b (after stage1a (after stage0 V))))))) main_v6 (by decide)).trans (keep4a (after stage3 (after stage2 (after stage1c (after stage1b (after stage1a (after stage0 V)))))) main_v6 (by decide))).trans g6
  have j71 : (after stage4c (after stage4b (after stage4a (after stage3 (after stage2 (after stage1c (after stage1b (after stage1a (after stage0 V))))))))) (Proc.devRef .tc main_v71) = Cert.Spec.norm (V (Proc.devRef .tc main_arg1)) :=
    stage4c_norm (after stage4b (after stage4a (after stage3 (after stage2 (after stage1c (after stage1b (after stage1a (after stage0 V)))))))) (V (Proc.devRef .tc main_arg1)) i3 i6 i56
  have j3 : (after stage4c (after stage4b (after stage4a (after stage3 (after stage2 (after stage1c (after stage1b (after stage1a (after stage0 V))))))))) (Proc.devRef .tc main_v3) = Cert.Spec.src (V (Proc.devRef .tc main_arg1)) :=
    (keep4c (after stage4b (after stage4a (after stage3 (after stage2 (after stage1c (after stage1b (after stage1a (after stage0 V)))))))) main_v3 (by decide)).trans i3
  have j6 : (after stage4c (after stage4b (after stage4a (after stage3 (after stage2 (after stage1c (after stage1b (after stage1a (after stage0 V))))))))) (Proc.devRef .tc main_v6) = Cert.Spec.dst (V (Proc.devRef .tc main_arg1)) :=
    (keep4c (after stage4b (after stage4a (after stage3 (after stage2 (after stage1c (after stage1b (after stage1a (after stage0 V)))))))) main_v6 (by decide)).trans i6
  have j48 : (after stage4c (after stage4b (after stage4a (after stage3 (after stage2 (after stage1c (after stage1b (after stage1a (after stage0 V))))))))) (Proc.devRef .tc main_v48) = (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) :=
    ((keep4c (after stage4b (after stage4a (after stage3 (after stage2 (after stage1c (after stage1b (after stage1a (after stage0 V)))))))) main_v48 (by decide)).trans ((keep4b (after stage4a (after stage3 (after stage2 (after stage1c (after stage1b (after stage1a (after stage0 V))))))) main_v48 (by decide)).trans (keep4a (after stage3 (after stage2 (after stage1c (after stage1b (after stage1a (after stage0 V)))))) main_v48 (by decide)))).trans g48
  have k84 : (after stage5 (after stage4c (after stage4b (after stage4a (after stage3 (after stage2 (after stage1c (after stage1b (after stage1a (after stage0 V)))))))))) (Proc.devRef .tc main_v84) = (Cert.Spec.agg2 (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) (V (Proc.devRef .tc main_arg1))) :=
    stage5_agg2 (after stage4c (after stage4b (after stage4a (after stage3 (after stage2 (after stage1c (after stage1b (after stage1a (after stage0 V))))))))) (V (Proc.devRef .tc main_arg1)) (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) j3 j6 j48 j71
  have p5 : (after stage5 (after stage4c (after stage4b (after stage4a (after stage3 (after stage2 (after stage1c (after stage1b (after stage1a (after stage0 V)))))))))) (Proc.devRef .tc main_arg5) = (V (Proc.devRef .tc main_arg5)) :=
    ((keep5 (after stage4c (after stage4b (after stage4a (after stage3 (after stage2 (after stage1c (after stage1b (after stage1a (after stage0 V))))))))) main_arg5 (by decide)).trans ((keep4c (after stage4b (after stage4a (after stage3 (after stage2 (after stage1c (after stage1b (after stage1a (after stage0 V)))))))) main_arg5 (by decide)).trans ((keep4b (after stage4a (after stage3 (after stage2 (after stage1c (after stage1b (after stage1a (after stage0 V))))))) main_arg5 (by decide)).trans ((keep4a (after stage3 (after stage2 (after stage1c (after stage1b (after stage1a (after stage0 V)))))) main_arg5 (by decide)).trans ((keep3 (after stage2 (after stage1c (after stage1b (after stage1a (after stage0 V))))) main_arg5 (by decide)).trans ((keep2 (after stage1c (after stage1b (after stage1a (after stage0 V)))) main_arg5 (by decide)).trans ((keep1c (after stage1b (after stage1a (after stage0 V))) main_arg5 (by decide)).trans ((keep1b (after stage1a (after stage0 V)) main_arg5 (by decide)).trans ((keep1a (after stage0 V) main_arg5 (by decide)).trans (keep0 V main_arg5 (by decide)))))))))))
  have l87 : (after stage6a (after stage5 (after stage4c (after stage4b (after stage4a (after stage3 (after stage2 (after stage1c (after stage1b (after stage1a (after stage0 V))))))))))) (Proc.devRef .tc main_v87) = (Cert.Spec.logits (Cert.Spec.agg2 (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) (V (Proc.devRef .tc main_arg1))) (Cert.Spec.biasRow2 (V (Proc.devRef .tc main_arg5)))) :=
    stage6a_logits (after stage5 (after stage4c (after stage4b (after stage4a (after stage3 (after stage2 (after stage1c (after stage1b (after stage1a (after stage0 V)))))))))) (Cert.Spec.agg2 (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) (V (Proc.devRef .tc main_arg1))) (V (Proc.devRef .tc main_arg5)) k84 p5
  have m2 : (after stage6b (after stage6a (after stage5 (after stage4c (after stage4b (after stage4a (after stage3 (after stage2 (after stage1c (after stage1b (after stage1a (after stage0 V)))))))))))) (Proc.devRef .tc main_call3_v2) = Cert.Spec.rowMax (Cert.Spec.logits (Cert.Spec.agg2 (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) (V (Proc.devRef .tc main_arg1))) (Cert.Spec.biasRow2 (V (Proc.devRef .tc main_arg5)))) :=
    (stage6b_rowMax (after stage6a (after stage5 (after stage4c (after stage4b (after stage4a (after stage3 (after stage2 (after stage1c (after stage1b (after stage1a (after stage0 V)))))))))))).trans (by rw [l87])
  have m87 : (after stage6b (after stage6a (after stage5 (after stage4c (after stage4b (after stage4a (after stage3 (after stage2 (after stage1c (after stage1b (after stage1a (after stage0 V)))))))))))) (Proc.devRef .tc main_v87) = (Cert.Spec.logits (Cert.Spec.agg2 (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) (V (Proc.devRef .tc main_arg1))) (Cert.Spec.biasRow2 (V (Proc.devRef .tc main_arg5)))) :=
    (keep6b (after stage6a (after stage5 (after stage4c (after stage4b (after stage4a (after stage3 (after stage2 (after stage1c (after stage1b (after stage1a (after stage0 V))))))))))) main_v87 (by decide)).trans l87
  have n5 : (after stage6c (after stage6b (after stage6a (after stage5 (after stage4c (after stage4b (after stage4a (after stage3 (after stage2 (after stage1c (after stage1b (after stage1a (after stage0 V))))))))))))) (Proc.devRef .tc main_call3_v5) = Cert.Spec.shifted (Cert.Spec.logits (Cert.Spec.agg2 (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) (V (Proc.devRef .tc main_arg1))) (Cert.Spec.biasRow2 (V (Proc.devRef .tc main_arg5)))) :=
    (stage6c_shift (after stage6b (after stage6a (after stage5 (after stage4c (after stage4b (after stage4a (after stage3 (after stage2 (after stage1c (after stage1b (after stage1a (after stage0 V))))))))))))).trans (by rw [m87, m2]; rfl)
  have o7 : (after stage6d (after stage6c (after stage6b (after stage6a (after stage5 (after stage4c (after stage4b (after stage4a (after stage3 (after stage2 (after stage1c (after stage1b (after stage1a (after stage0 V)))))))))))))) (Proc.devRef .tc main_call3_v7) = sumExp (Cert.Spec.shifted (Cert.Spec.logits (Cert.Spec.agg2 (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) (V (Proc.devRef .tc main_arg1))) (Cert.Spec.biasRow2 (V (Proc.devRef .tc main_arg5))))) :=
    (stage6d_sum (after stage6c (after stage6b (after stage6a (after stage5 (after stage4c (after stage4b (after stage4a (after stage3 (after stage2 (after stage1c (after stage1b (after stage1a (after stage0 V)))))))))))))).trans (by rw [n5])
  have o5 : (after stage6d (after stage6c (after stage6b (after stage6a (after stage5 (after stage4c (after stage4b (after stage4a (after stage3 (after stage2 (after stage1c (after stage1b (after stage1a (after stage0 V)))))))))))))) (Proc.devRef .tc main_call3_v5) = Cert.Spec.shifted (Cert.Spec.logits (Cert.Spec.agg2 (Cert.Spec.lin2 (Cert.Spec.act1 (Cert.Spec.agg1 (Cert.Spec.lin1 (V (Proc.devRef .tc main_arg0)) (V (Proc.devRef .tc main_arg2))) (V (Proc.devRef .tc main_arg1))) (Cert.Spec.biasRow1 (V (Proc.devRef .tc main_arg3)))) (V (Proc.devRef .tc main_arg4))) (V (Proc.devRef .tc main_arg1))) (Cert.Spec.biasRow2 (V (Proc.devRef .tc main_arg5)))) :=
    (keep6d (after stage6c (after stage6b (after stage6a (after stage5 (after stage4c (after stage4b (after stage4a (after stage3 (after stage2 (after stage1c (after stage1b (after stage1a (after stage0 V))))))))))))) main_call3_v5 (by decide)).trans n5
  exact (stage6e_sub (after stage6d (after stage6c (after stage6b (after stage6a (after stage5 (after stage4c (after stage4b (after stage4a (after stage3 (after stage2 (after stage1c (after stage1b (after stage1a (after stage0 V))))))))))))))).trans (by rw [o5, o7]; rfl)

/-! ## The run -/

set_option maxRecDepth 8192 in
set_option maxHeartbeats 4000000 in
/-- On every device, from any memory with zero counters: every weakly fair execution of the reference program terminates
    with the result buffer at the network of the six argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = Cert.Spec.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (after_ops_result (launchContents m c)),
      (h c main_arg0).trans (after_ops_keep (launchContents m c) main_arg0 (by decide) (by decide) (by decide) (by decide) (by decide) (by decide) (by decide) (by decide) (by decide) (by decide) (by decide) (by decide) (by decide) (by decide) (by decide)),
      (h c main_arg1).trans (after_ops_keep (launchContents m c) main_arg1 (by decide) (by decide) (by decide) (by decide) (by decide) (by decide) (by decide) (by decide) (by decide) (by decide) (by decide) (by decide) (by decide) (by decide) (by decide)),
      (h c main_arg2).trans (after_ops_keep (launchContents m c) main_arg2 (by decide) (by decide) (by decide) (by decide) (by decide) (by decide) (by decide) (by decide) (by decide) (by decide) (by decide) (by decide) (by decide) (by decide) (by decide)),
      (h c main_arg3).trans (after_ops_keep (launchContents m c) main_arg3 (by decide) (by decide) (by decide) (by decide) (by decide) (by decide) (by decide) (by decide) (by decide) (by decide) (by decide) (by decide) (by decide) (by decide) (by decide)),
      (h c main_arg4).trans (after_ops_keep (launchContents m c) main_arg4 (by decide) (by decide) (by decide) (by decide) (by decide) (by decide) (by decide) (by decide) (by decide) (by decide) (by decide) (by decide) (by decide) (by decide) (by decide)),
      (h c main_arg5).trans (after_ops_keep (launchContents m c) main_arg5 (by decide) (by decide) (by decide) (by decide) (by decide) (by decide) (by decide) (by decide) (by decide) (by decide) (by decide) (by decide) (by decide) (by decide) (by decide))⟩)
    (run_seq RefOps.scopedRefs_eq RefOps.scopedSems_eq defs main (fun _ => RefOps.ops) RefOps.main_eq (fun _ => RefOps.ops_sub) m ρ)

end Cert.ReferenceIdeal.RefValue

end
-- ==== Proof.lean ====
/-
  A two-layer graph convolution (linear map, degree-normalised neighbour aggregation, bias; a rectifier between the
  layers and a log-softmax after the second) over 100000 nodes and 1600000 edges plus the self loops: the kernel
  computes the two linear maps, bias + rectifier and bias + log-softmax in four TensorCore regions of twenty row
  tiles each and leaves the gathers and scatter-adds to host operations; the reference is host operations throughout.

  Over the extended reals both compute ONE function `Spec.gcn` of the six argument arrays. Each region's output array
  is its dense stage of the region's two input arrays (a tile's matrix product is the rows of the whole product; the
  bias row is added to every row; the row maximum and the row sum of exponentials of a tile are those of the whole
  array's rows), the host operations between the regions are the reference's own, read back operation by operation,
  and the kernel's bias rows (a reshape) are the reference's (a broadcast along a new axis). No law of arithmetic is
  used beyond reading sums and maxima index by index: the two sides apply the same operations in the same order, so
  the precondition is never opened. The ideal pass rewrote no operation, so the preservation claim is trivial.
-/
import proofs.«133091_j23149873725488_1_alg».proof.Defs
import proofs.«133091_j23149873725488_1_alg».proof.Proof.Gen.Kernel
import proofs.«133091_j23149873725488_1_alg».proof.Proof.Gen.Kernel.Skeleton
import proofs.«133091_j23149873725488_1_alg».proof.Proof.Gen.Kernel.Launch
import proofs.«133091_j23149873725488_1_alg».proof.Proof.Gen.Kernel.Points
import proofs.«133091_j23149873725488_1_alg».proof.Proof.Gen.Kernel.Frame
import proofs.«133091_j23149873725488_1_alg».proof.Proof.Gen.KernelIdeal
import proofs.«133091_j23149873725488_1_alg».proof.Proof.Gen.KernelIdeal.Skeleton
import proofs.«133091_j23149873725488_1_alg».proof.Proof.Gen.KernelIdeal.Launch
import proofs.«133091_j23149873725488_1_alg».proof.Proof.Gen.KernelIdeal.Points
import proofs.«133091_j23149873725488_1_alg».proof.Proof.Gen.KernelIdeal.Frame
import proofs.«133091_j23149873725488_1_alg».proof.Proof.Gen.ReferenceIdeal
import proofs.«133091_j23149873725488_1_alg».proof.Proof.Gen.Pre_finite_inputs
import proofs.«133091_j23149873725488_1_alg».proof.Proof.KernelRun
import proofs.«133091_j23149873725488_1_alg».proof.Proof.KernelValue
import proofs.«133091_j23149873725488_1_alg».proof.Proof.RefRunValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- From memories agreeing on the arguments both programs end with the network of the arguments in their result
    buffers. -/
theorem algebraic : Cert.algebraic_KernelIdeal_ReferenceIdeal := by
  intro m ρ m' ρ' _ hagree
  refine ⟨fun c => Cert.Spec.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.RunValue.W9_v61 m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
